-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x2048 : Shape := ⟨3, ![8, 1024, 2048]⟩
abbrev S8x4096x2048 : Shape := ⟨3, ![8, 4096, 2048]⟩
abbrev S8x4096 : Shape := ⟨2, ![8, 4096]⟩
abbrev S8x2048x4096 : Shape := ⟨3, ![8, 2048, 4096]⟩
abbrev S8x2048 : Shape := ⟨2, ![8, 2048]⟩
abbrev S_ : Shape := ⟨0, ![]⟩

class Facts : Prop where
  bcast_S_S8x1024x2048 : S_.BroadcastsInDim S8x1024x2048 (![] : Fin 0 → Fin S8x1024x2048.rank)
  reducesTo_S8x1024x2048_S_d0_1_2 : S8x1024x2048.ReducesTo [0, 1, 2] S_
  h_S_ : 0 < S_.numel
  bcast_S_S8x4096x2048 : S_.BroadcastsInDim S8x4096x2048 (![] : Fin 0 → Fin S8x4096x2048.rank)
  reducesTo_S8x4096x2048_S_d0_1_2 : S8x4096x2048.ReducesTo [0, 1, 2] S_
  bcast_S_S8x4096 : S_.BroadcastsInDim S8x4096 (![] : Fin 0 → Fin S8x4096.rank)
  reducesTo_S8x4096_S_d0_1 : S8x4096.ReducesTo [0, 1] S_
  bcast_S_S8x2048x4096 : S_.BroadcastsInDim S8x2048x4096 (![] : Fin 0 → Fin S8x2048x4096.rank)
  reducesTo_S8x2048x4096_S_d0_1_2 : S8x2048x4096.ReducesTo [0, 1, 2] S_
  bcast_S_S8x2048 : S_.BroadcastsInDim S8x2048 (![] : Fin 0 → Fin S8x2048.rank)
  reducesTo_S8x2048_S_d0_1 : S8x2048.ReducesTo [0, 1] S_

variable [Facts]

def fn_part1 {F : FTy → Type} [FloatOps F] (main_arg4 : FVec F S8x2048x4096 .f32) (main_arg5 : FVec F S8x2048 .f32) (main_v13 : IVec S_ 1) (main_v16 : IVec S8x4096 1) : IVec S_ 1 :=
  let main_c_5 : IVec S_ 1 := constantI S_ 1 1#1
  let main_v17 : IVec S_ 1 := (fun x v => Host.reduce IntOp.andi x v reducesTo_S8x4096_S_d0_1 h_S_) main_v16 main_c_5
  let main_v18 : IVec S_ 1 := andi main_v13 main_v17
  let main_v19 : FVec F S8x2048x4096 .f32 := Host.absf main_arg4
  let main_cst_6 : FVec F S_ .f32 := constant S_ .f32 0x7F800000#32
  let main_v20 : FVec F S8x2048x4096 .f32 := broadcastInDim S8x2048x4096 ![] bcast_S_S8x2048x4096 main_cst_6
  let main_v21 : IVec S8x2048x4096 1 := cmpf .olt main_v19 main_v20
  let main_c_7 : IVec S_ 1 := constantI S_ 1 1#1
  let main_v22 : IVec S_ 1 := (fun x v => Host.reduce IntOp.andi x v reducesTo_S8x2048x4096_S_d0_1_2 h_S_) main_v21 main_c_7
  let main_v23 : IVec S_ 1 := andi main_v18 main_v22
  let main_v24 : FVec F S8x2048 .f32 := Host.absf main_arg5
  let main_cst_8 : FVec F S_ .f32 := constant S_ .f32 0x7F800000#32
  let main_v25 : FVec F S8x2048 .f32 := broadcastInDim S8x2048 ![] bcast_S_S8x2048 main_cst_8
  let main_v26 : IVec S8x2048 1 := cmpf .olt main_v24 main_v25
  let main_c_9 : IVec S_ 1 := constantI S_ 1 1#1
  let main_v27 : IVec S_ 1 := (fun x v => Host.reduce IntOp.andi x v reducesTo_S8x2048_S_d0_1 h_S_) main_v26 main_c_9
  let main_v28 : IVec S_ 1 := andi main_v23 main_v27
  main_v28

def fn {F : FTy → Type} [FloatOps F] (main_arg0 : FVec F S8x1024x2048 .f32) (main_arg1 : FVec F S8x1024x2048 .f32) (main_arg2 : FVec F S8x4096x2048 .f32) (main_arg3 : FVec F S8x4096 .f32) (main_arg4 : FVec F S8x2048x4096 .f32) (main_arg5 : FVec F S8x2048 .f32) : IVec S_ 1 :=
  let main_v0 : FVec F S8x1024x2048 .f32 := Host.absf main_arg0
  let main_cst : FVec F S_ .f32 := constant S_ .f32 0x7F800000#32
  let main_v1 : FVec F S8x1024x2048 .f32 := broadcastInDim S8x1024x2048 ![] bcast_S_S8x1024x2048 main_cst
  let main_v2 : IVec S8x1024x2048 1 := cmpf .olt main_v0 main_v1
  let main_c : IVec S_ 1 := constantI S_ 1 1#1
  let main_v3 : IVec S_ 1 := (fun x v => Host.reduce IntOp.andi x v reducesTo_S8x1024x2048_S_d0_1_2 h_S_) main_v2 main_c
  let main_v4 : FVec F S8x1024x2048 .f32 := Host.absf main_arg1
  let main_cst_0 : FVec F S_ .f32 := constant S_ .f32 0x7F800000#32
  let main_v5 : FVec F S8x1024x2048 .f32 := broadcastInDim S8x1024x2048 ![] bcast_S_S8x1024x2048 main_cst_0
  let main_v6 : IVec S8x1024x2048 1 := cmpf .olt main_v4 main_v5
  let main_c_1 : IVec S_ 1 := constantI S_ 1 1#1
  let main_v7 : IVec S_ 1 := (fun x v => Host.reduce IntOp.andi x v reducesTo_S8x1024x2048_S_d0_1_2 h_S_) main_v6 main_c_1
  let main_v8 : IVec S_ 1 := andi main_v3 main_v7
  let main_v9 : FVec F S8x4096x2048 .f32 := Host.absf main_arg2
  let main_cst_2 : FVec F S_ .f32 := constant S_ .f32 0x7F800000#32
  let main_v10 : FVec F S8x4096x2048 .f32 := broadcastInDim S8x4096x2048 ![] bcast_S_S8x4096x2048 main_cst_2
  let main_v11 : IVec S8x4096x2048 1 := cmpf .olt main_v9 main_v10
  let main_c_3 : IVec S_ 1 := constantI S_ 1 1#1
  let main_v12 : IVec S_ 1 := (fun x v => Host.reduce IntOp.andi x v reducesTo_S8x4096x2048_S_d0_1_2 h_S_) main_v11 main_c_3
  let main_v13 : IVec S_ 1 := andi main_v8 main_v12
  let main_v14 : FVec F S8x4096 .f32 := Host.absf main_arg3
  let main_cst_4 : FVec F S_ .f32 := constant S_ .f32 0x7F800000#32
  let main_v15 : FVec F S8x4096 .f32 := broadcastInDim S8x4096 ![] bcast_S_S8x4096 main_cst_4
  let main_v16 : IVec S8x4096 1 := cmpf .olt main_v14 main_v15
  fn_part1 (F := F) main_arg4 main_arg5 main_v13 main_v16
-- ==== Kernel.lean ====
abbrev S8x1024x2048 : Shape := ⟨3, ![8, 1024, 2048]⟩
abbrev S8x4096x2048 : Shape := ⟨3, ![8, 4096, 2048]⟩
abbrev S8x4096 : Shape := ⟨2, ![8, 4096]⟩
abbrev S8x2048x4096 : Shape := ⟨3, ![8, 2048, 4096]⟩
abbrev S8x2048 : Shape := ⟨2, ![8, 2048]⟩
abbrev S64x1x512 : Shape := ⟨3, ![64, 1, 512]⟩
abbrev S8x1x2048 : Shape := ⟨3, ![8, 1, 2048]⟩
abbrev S1x1024x2048 : Shape := ⟨3, ![1, 1024, 2048]⟩
abbrev S1x512x2048 : Shape := ⟨3, ![1, 512, 2048]⟩
abbrev S1x1x512 : Shape := ⟨3, ![1, 1, 512]⟩
abbrev S1x2048x512 : Shape := ⟨3, ![1, 2048, 512]⟩
abbrev S1x1x2048 : Shape := ⟨3, ![1, 1, 2048]⟩
abbrev S1024x2048 : Shape := ⟨2, ![1024, 2048]⟩
abbrev S512x2048 : Shape := ⟨2, ![512, 2048]⟩
abbrev S2048x512 : Shape := ⟨2, ![2048, 512]⟩
abbrev S1024x512 : Shape := ⟨2, ![1024, 512]⟩
abbrev S1x512 : Shape := ⟨2, ![1, 512]⟩
abbrev S1x2048 : Shape := ⟨2, ![1, 2048]⟩

abbrev nBuf : Space → Nat
  | .hbm => 11
  | .vmem => 14
  | .smem => 0
  | _ => 0

abbrev bufTy : (tb : Table) → Fin (tcTables nBuf tb) → BufTy
  | .hbm, ⟨0, _⟩ => ⟨S8x1024x2048, .f32⟩
  | .hbm, ⟨1, _⟩ => ⟨S8x1024x2048, .f32⟩
  | .hbm, ⟨2, _⟩ => ⟨S8x4096x2048, .f32⟩
  | .hbm, ⟨3, _⟩ => ⟨S8x4096, .f32⟩
  | .hbm, ⟨4, _⟩ => ⟨S8x2048x4096, .f32⟩
  | .hbm, ⟨5, _⟩ => ⟨S8x2048, .f32⟩
  | .hbm, ⟨6, _⟩ => ⟨S8x1024x2048, .bf16⟩
  | .hbm, ⟨7, _⟩ => ⟨S8x1024x2048, .bf16⟩
  | .hbm, ⟨8, _⟩ => ⟨S64x1x512, .f32⟩
  | .hbm, ⟨9, _⟩ => ⟨S8x1x2048, .f32⟩
  | .hbm, ⟨10, _⟩ => ⟨S8x1024x2048, .f32⟩
  | .local _ .vmem, ⟨0, _⟩ => ⟨S1x1024x2048, .bf16⟩
  | .local _ .vmem, ⟨1, _⟩ => ⟨S1x1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1x512x2048, .f32⟩
  | .local _ .vmem, ⟨5, _⟩ => ⟨S1x512x2048, .f32⟩
  | .local _ .vmem, ⟨6, _⟩ => ⟨S1x1x512, .f32⟩
  | .local _ .vmem, ⟨7, _⟩ => ⟨S1x1x512, .f32⟩
  | .local _ .vmem, ⟨8, _⟩ => ⟨S1x2048x512, .f32⟩
  | .local _ .vmem, ⟨9, _⟩ => ⟨S1x2048x512, .f32⟩
  | .local _ .vmem, ⟨10, _⟩ => ⟨S1x1x2048, .f32⟩
  | .local _ .vmem, ⟨11, _⟩ => ⟨S1x1x2048, .f32⟩
  | .local _ .vmem, ⟨12, _⟩ => ⟨S1x1024x2048, .f32⟩
  | .local _ .vmem, ⟨13, _⟩ => ⟨S1x1024x2048, .f32⟩
  | _, _ => ⟨S8x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg1 : BitVec 32 := BitVec.ofNat 32 (i 1).val
  let c0_i32 : BitVec 32 := 0#32
  let v31 : BitVec 1 := Scalar.cmpi .eq arg1 c0_i32
  let v32 : BitVec 32 := Scalar.extui v31
  let c0_i32_19 : BitVec 32 := 0#32
  let v33 : BitVec 1 := Scalar.cmpi .ne v32 c0_i32_19
  v33

def k0_cond2 (i : grid0.Coords) : BitVec 1 :=
  let arg1 : BitVec 32 := BitVec.ofNat 32 (i 1).val
  let c0_i32_20 : BitVec 32 := 0#32
  let v34 : BitVec 1 := Scalar.cmpi .ne arg1 c0_i32_20
  let v35 : BitVec 32 := Scalar.extui v34
  let c0_i32_21 : BitVec 32 := 0#32
  let v36 : BitVec 1 := Scalar.cmpi .ne v35 c0_i32_21
  v36

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  bitsLt_bf16_f32 : FTy.bits .bf16 < FTy.bits .f32
  shapeCasts_S8x4096_S64x1x512 : S8x4096.ShapeCasts S64x1x512
  shapeCasts_S8x2048_S8x1x2048 : S8x2048.ShapeCasts S8x1x2048
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  broadcasts_S1x512_S1024x512 : S1x512.Broadcasts S1024x512
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  broadcasts_S1x2048_S1024x2048 : S1x2048.Broadcasts S1024x2048
  shapeCasts_S1024x2048_S1x1024x2048 : S1024x2048.ShapeCasts S1x1024x2048
  dot_S1024x2048_S512x2048_S1024x512_1_1_0_0_n_n_wf : DotDims.WF S1024x2048 S512x2048 S1024x512 [1] [1] [0] [0] [] []
  dot_S1024x512_S2048x512_S1024x2048_1_1_0_0_n_n_wf : DotDims.WF S1024x512 S2048x512 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x2048.size a ≤ S8x1024x2048.size a
  hwx0_0 : ∀ i : grid0.Coords, EltTy.bits .bf16 = 32 ∨ (Rect.block (s := S8x1024x2048) S1x1024x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x2048.size a ≤ S8x1024x2048.size a
  hwx0_1 : ∀ i : grid0.Coords, EltTy.bits .bf16 = 32 ∨ (Rect.block (s := S8x1024x2048) S1x1024x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x2048.size a ≤ S8x4096x2048.size a
  hwx0_2 : ∀ i : grid0.Coords, EltTy.bits .f32 = 32 ∨ (Rect.block (s := S8x4096x2048) S1x512x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x512.size a ≤ S64x1x512.size a
  hwx0_3 : ∀ i : grid0.Coords, EltTy.bits .f32 = 32 ∨ (Rect.block (s := S64x1x512) S1x1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2048x512.size a ≤ S8x2048x4096.size a
  hwx0_4 : ∀ i : grid0.Coords, EltTy.bits .f32 = 32 ∨ (Rect.block (s := S8x2048x4096) S1x2048x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x2048.size a ≤ S8x1x2048.size a
  hwx0_5 : ∀ i : grid0.Coords, EltTy.bits .f32 = 32 ∨ (Rect.block (s := S8x1x2048) S1x1x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1024x2048.size a ≤ S8x1024x2048.size a
  hwx0_6 : ∀ i : grid0.Coords, EltTy.bits .f32 = 32 ∨ (Rect.block (s := S8x1024x2048) S1x1024x2048.size (cc0_transform_6 i) (hinb0_6 i)).WholeWords (EltTy.packing .f32)

variable [Facts₀]

def dot_S1024x2048_S512x2048_S1024x512_1_1_0_0_n_n : DotDims S1024x2048 S512x2048 S1024x512 where
  lhsContracting := [1]
  rhsContracting := [1]
  lhsNonContracting := [0]
  rhsNonContracting := [0]
  lhsBatch := []
  rhsBatch := []
  wf := dot_S1024x2048_S512x2048_S1024x512_1_1_0_0_n_n_wf
def dot_S1024x512_S2048x512_S1024x2048_1_1_0_0_n_n : DotDims S1024x512 S2048x512 S1024x2048 where
  lhsContracting := [1]
  rhsContracting := [1]
  lhsNonContracting := [0]
  rhsNonContracting := [0]
  lhsBatch := []
  rhsBatch := []
  wf := dot_S1024x512_S2048x512_S1024x2048_1_1_0_0_n_n_wf

abbrev win0_0 : Pipeline.Window sig grid0 :=
  Pipeline.Window.ofSpec (Memref.whole main_v0) S1x1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x512x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x2048x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x1x2048.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4) S1x1024x2048.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond1 i == 1#1) && !(k0_cond2 i == 1#1) | ⟨_ + 7, h⟩ => absurd h (Nat.not_lt.2 (Nat.le_add_left _ _))

class Facts : Prop extends Facts₀ where

variable [Facts]
-- ==== ReferenceIdeal.lean ====
abbrev S8x1024x2048 : Shape := ⟨3, ![8, 1024, 2048]⟩
abbrev S8x4096x2048 : Shape := ⟨3, ![8, 4096, 2048]⟩
abbrev S8x4096 : Shape := ⟨2, ![8, 4096]⟩
abbrev S8x2048x4096 : Shape := ⟨3, ![8, 2048, 4096]⟩
abbrev S8x2048 : Shape := ⟨2, ![8, 2048]⟩
abbrev S8x1024x4096 : Shape := ⟨3, ![8, 1024, 4096]⟩
abbrev S8x1x4096 : Shape := ⟨3, ![8, 1, 4096]⟩
abbrev S_ : Shape := ⟨0, ![]⟩
abbrev S8x1x2048 : Shape := ⟨3, ![8, 1, 2048]⟩

abbrev nBuf : Space → Nat
  | .hbm => 34
  | .vmem => 0
  | .smem => 0
  | _ => 0

abbrev bufTy : (tb : Table) → Fin (tcTables nBuf tb) → BufTy
  | .hbm, ⟨0, _⟩ => ⟨S8x1024x2048, .f32⟩
  | .hbm, ⟨1, _⟩ => ⟨S8x1024x2048, .f32⟩
  | .hbm, ⟨2, _⟩ => ⟨S8x4096x2048, .f32⟩
  | .hbm, ⟨3, _⟩ => ⟨S8x4096, .f32⟩
  | .hbm, ⟨4, _⟩ => ⟨S8x2048x4096, .f32⟩
  | .hbm, ⟨5, _⟩ => ⟨S8x2048, .f32⟩
  | .hbm, ⟨6, _⟩ => ⟨S8x1024x2048, .f32⟩
  | .hbm, ⟨7, _⟩ => ⟨S8x2048x4096, .f32⟩
  | .hbm, ⟨8, _⟩ => ⟨S8x1024x4096, .f32⟩
  | .hbm, ⟨9, _⟩ => ⟨S8x1x4096, .f32⟩
  | .hbm, ⟨10, _⟩ => ⟨S8x1024x4096, .f32⟩
  | .hbm, ⟨11, _⟩ => ⟨S8x1024x4096, .f32⟩
  | .hbm, ⟨12, _⟩ => ⟨S8x1024x4096, .f32⟩
  | .hbm, ⟨13, _⟩ => ⟨S8x1024x4096, .f32⟩
  | .hbm, ⟨14, _⟩ => ⟨S_, .f32⟩
  | .hbm, ⟨15, _⟩ => ⟨S8x1024x4096, .f32⟩
  | .hbm, ⟨16, _⟩ => ⟨S8x1024x4096, .f32⟩
  | .hbm, ⟨17, _⟩ => ⟨S8x1024x4096, .f32⟩
  | .hbm, ⟨18, _⟩ => ⟨S_, .f32⟩
  | .hbm, ⟨19, _⟩ => ⟨S8x1024x4096, .f32⟩
  | .hbm, ⟨20, _⟩ => ⟨S8x1024x4096, .f32⟩
  | .hbm, ⟨21, _⟩ => ⟨S8x1024x4096, .f32⟩
  | .hbm, ⟨22, _⟩ => ⟨S_, .f32⟩
  | .hbm, ⟨23, _⟩ => ⟨S8x1024x4096, .f32⟩
  | .hbm, ⟨24, _⟩ => ⟨S8x1024x4096, .f32⟩
  | .hbm, ⟨25, _⟩ => ⟨S_, .f32⟩
  | .hbm, ⟨26, _⟩ => ⟨S8x1024x4096, .f32⟩
  | .hbm, ⟨27, _⟩ => ⟨S8x1024x4096, .f32⟩
  | .hbm, ⟨28, _⟩ => ⟨S8x1024x4096, .f32⟩
  | .hbm, ⟨29, _⟩ => ⟨S8x4096x2048, .f32⟩
  | .hbm, ⟨30, _⟩ => ⟨S8x1024x2048, .f32⟩
  | .hbm, ⟨31, _⟩ => ⟨S8x1x2048, .f32⟩
  | .hbm, ⟨32, _⟩ => ⟨S8x1024x2048, .f32⟩
  | .hbm, ⟨33, _⟩ => ⟨S8x1024x2048, .f32⟩
  | _, _ => ⟨S8x1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]

class Facts₀ : Prop where
  transposes_S8x4096x2048_S8x2048x4096_0_2_1 : S8x4096x2048.Transposes [0, 2, 1] S8x2048x4096
  bcast_S8x4096_S8x1x4096_0_2 : S8x4096.BroadcastsInDim S8x1x4096 (![0, 2] : Fin 2 → Fin S8x1x4096.rank)
  bcast_S8x1x4096_S8x1024x4096_0_1_2 : S8x1x4096.BroadcastsInDim S8x1024x4096 (![0, 1, 2] : Fin 3 → Fin S8x1024x4096.rank)
  bcast_S_S8x1024x4096 : S_.BroadcastsInDim S8x1024x4096 (![] : Fin 0 → Fin S8x1024x4096.rank)
  transposes_S8x2048x4096_S8x4096x2048_0_2_1 : S8x2048x4096.Transposes [0, 2, 1] S8x4096x2048
  bcast_S8x2048_S8x1x2048_0_2 : S8x2048.BroadcastsInDim S8x1x2048 (![0, 2] : Fin 2 → Fin S8x1x2048.rank)
  bcast_S8x1x2048_S8x1024x2048_0_1_2 : S8x1x2048.BroadcastsInDim S8x1024x2048 (![0, 1, 2] : Fin 3 → Fin S8x1024x2048.rank)
  dot_S8x1024x2048_S8x2048x4096_S8x1024x4096_2_1_1_2_0_0_wf : DotDims.WF S8x1024x2048 S8x2048x4096 S8x1024x4096 [2] [1] [1] [2] [0] [0]
  dot_S8x1024x4096_S8x4096x2048_S8x1024x2048_2_1_1_2_0_0_wf : DotDims.WF S8x1024x4096 S8x4096x2048 S8x1024x2048 [2] [1] [1] [2] [0] [0]

variable [Facts₀]

def dot_S8x1024x2048_S8x2048x4096_S8x1024x4096_2_1_1_2_0_0 : DotDims S8x1024x2048 S8x2048x4096 S8x1024x4096 where
  lhsContracting := [2]
  rhsContracting := [1]
  lhsNonContracting := [1]
  rhsNonContracting := [2]
  lhsBatch := [0]
  rhsBatch := [0]
  wf := dot_S8x1024x2048_S8x2048x4096_S8x1024x4096_2_1_1_2_0_0_wf
def dot_S8x1024x4096_S8x4096x2048_S8x1024x2048_2_1_1_2_0_0 : DotDims S8x1024x4096 S8x4096x2048 S8x1024x2048 where
  lhsContracting := [2]
  rhsContracting := [1]
  lhsNonContracting := [1]
  rhsNonContracting := [2]
  lhsBatch := [0]
  rhsBatch := [0]
  wf := dot_S8x1024x4096_S8x4096x2048_S8x1024x2048_2_1_1_2_0_0_wf

class Facts : Prop extends Facts₀ where

variable [Facts]
-- ==== Proof.K.Cases.lean ====
/-
  The kernel body at one grid point (e, f), run symbolically on whole staging buffers, in its two control cases.
  The body computes the tile  o = gelu((x + cond)·W1ᵀ|tile f + b1|tile f) · W2ᵀ|tile f  of expert e and then
  either RESETS the output block to  o + b2  (f = 0)  or ADDS o to what the block already holds (f ≠ 0).
  Each run returns, as its witness, the list of pieces its one store leaves in the output buffer.
-/
import proofs.«149297_g12060268167401_cont_fleet_796_23_alg».proof.Proof.Gen.Kernel.Frame
import proofs.«149297_g12060268167401_cont_fleet_796_23_alg».proof.Proof.Gen.Kernel.Skeleton

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which case a grid point is in

The grid is 8 experts × 8 tiles of the hidden axis, row-major: point t is (t / 8, t % 8). -/

/-- The reset branch is taken exactly at the first tile of each expert. -/
theorem reset_iff : ∀ t : Fin cfg0.N, k0_cond1 (grid0.coords t) = 1#1 ↔ t.val % 8 = 0 :=
  (by decide +kernel : ∀ t : Fin grid0.N, k0_cond1 (grid0.coords t) = 1#1 ↔ t.val % 8 = 0)

/-- The accumulate branch is taken exactly at the other tiles. -/
theorem accum_iff : ∀ t : Fin cfg0.N, k0_cond2 (grid0.coords t) = 1#1 ↔ ¬ t.val % 8 = 0 :=
  (by decide +kernel : ∀ t : Fin grid0.N, k0_cond2 (grid0.coords t) = 1#1 ↔ ¬ t.val % 8 = 0)

/-- Every point takes one of the two branches, so the output window is never idle. -/
theorem out_live : ∀ i : grid0.Coords, cfg0.idle 6 i = false := by
  intro i
  show (!(k0_cond1 i == 1#1) && !(k0_cond2 i == 1#1)) = false
  unfold k0_cond1 k0_cond2
  generalize i 1 = k
  revert k
  decide

/-! ## The two runs -/

set_option maxHeartbeats 1000000 in
/-- First tile (f = 0): the inputs' buffers at their blocks, the output's at anything; the body stores o + b2. -/
noncomputable def runReset (c : Dev nD) (i : grid0.Coords) (arg2 : Memref sig .tc .vmem S1x1024x2048 .bf16) (harg2 : arg2.IsWhole) (arg3 : Memref sig .tc .vmem S1x1024x2048 .bf16) (harg3 : arg3.IsWhole) (arg4 : Memref sig .tc .vmem S1x512x2048 .f32) (harg4 : arg4.IsWhole) (arg5 : Memref sig .tc .vmem S1x1x512 .f32) (harg5 : arg5.IsWhole) (arg6 : Memref sig .tc .vmem S1x2048x512 .f32) (harg6 : arg6.IsWhole) (arg7 : Memref sig .tc .vmem S1x1x2048 .f32) (harg7 : arg7.IsWhole) (arg8 : Memref sig .tc .vmem S1x1024x2048 .f32) (harg8 : arg8.IsWhole)
    (hc1 : k0_cond1 i = 1#1) (hc2 : ¬ k0_cond2 i = 1#1)
    (x0 : Vec F S1x1024x2048 .bf16) (x1 : Vec F S1x1024x2048 .bf16) (x2 : Vec F S1x512x2048 .f32) (x3 : Vec F S1x1x512 .f32) (x4 : Vec F S1x2048x512 .f32) (x5 : Vec F S1x1x2048 .f32) :
    { L : List (View.Piece (Elt F) S1x1024x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L)) -∗ K ⟨⟩))
          ⊢ wp frame (wpE (defs₀ (F := F)) Variants.none c none) E (cc0__ffn_kernel i arg2 harg2 arg3 harg3 arg4 harg4 arg5 harg5 arg6 harg6 arg7 harg7 arg8 harg8) K } := by
  refine ⟨?_, fun E K => ?run⟩
  case run =>
    simp only [cc0__ffn_kernel_eq_skeleton]; unfold cc0__ffn_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact H6

set_option maxHeartbeats 1000000 in
/-- Later tiles (f ≠ 0): the output's buffer at the running sum `acc`; the body stores acc + o. -/
noncomputable def runAccum (c : Dev nD) (i : grid0.Coords) (arg2 : Memref sig .tc .vmem S1x1024x2048 .bf16) (harg2 : arg2.IsWhole) (arg3 : Memref sig .tc .vmem S1x1024x2048 .bf16) (harg3 : arg3.IsWhole) (arg4 : Memref sig .tc .vmem S1x512x2048 .f32) (harg4 : arg4.IsWhole) (arg5 : Memref sig .tc .vmem S1x1x512 .f32) (harg5 : arg5.IsWhole) (arg6 : Memref sig .tc .vmem S1x2048x512 .f32) (harg6 : arg6.IsWhole) (arg7 : Memref sig .tc .vmem S1x1x2048 .f32) (harg7 : arg7.IsWhole) (arg8 : Memref sig .tc .vmem S1x1024x2048 .f32) (harg8 : arg8.IsWhole)
    (hc1 : ¬ k0_cond1 i = 1#1) (hc2 : k0_cond2 i = 1#1)
    (x0 : Vec F S1x1024x2048 .bf16) (x1 : Vec F S1x1024x2048 .bf16) (x2 : Vec F S1x512x2048 .f32) (x3 : Vec F S1x1x512 .f32) (x4 : Vec F S1x2048x512 .f32) (x5 : Vec F S1x1x2048 .f32) (acc : Vec F S1x1024x2048 .f32) :
    { L : List (View.Piece (Elt F) S1x1024x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare acc
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L)) -∗ K ⟨⟩))
          ⊢ wp frame (wpE (defs₀ (F := F)) Variants.none c none) E (cc0__ffn_kernel i arg2 harg2 arg3 harg3 arg4 harg4 arg5 harg5 arg6 harg6 arg7 harg7 arg8 harg8) K } := by
  refine ⟨?_, fun E K => ?run⟩
  case run =>
    simp only [cc0__ffn_kernel_eq_skeleton]; unfold cc0__ffn_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact H6

end Cert.Kernel.Body

end
-- ==== Proof.K.Frame.lean ====
/-
  The frame of the kernel's program from its body: what the output block holds after each grid point, the pipeline's
  proof data, the body obligation at every point, the run and the frame.

  The output block of expert e is revisited by the eight points (e, 0), …, (e, 7) and written back once, after
  (e, 7). Point (e, 0) overwrites it whatever it held; each later point reads what the point before left and adds
  to it. So what the block holds after point n is defined by recursion on n: the reset case's contents when
  n ≡ 0 (mod 8), the accumulate case's over the contents after n - 1 otherwise.
-/
import proofs.«149297_g12060268167401_cont_fleet_796_23_alg».proof.Proof.K.Cases

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The staging buffers at a point -/

/-- One staging buffer of the output window, through which its contents are stated (the choice does not matter). -/
abbrev outView : View sig .tc .vmem S1x1024x2048 .f32 := (Memref.whole cc0_stg6_0 : Memref sig .tc .vmem S1x1024x2048 .f32).view

abbrev ms0 (t : Fin cfg0.N) : Memref sig .tc .vmem S1x1024x2048 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1024x2048 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x512x2048 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x512 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x2048x512 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1x2048 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x1024x2048 .f32 := win0_6.stage (cfg0.slots t 6)
abbrev hs6 (t : Fin cfg0.N) : (ms6 t).IsWhole := hstage0_6 ((cfg0.slots t 6).cast nbuf0_6)

/-! ## What each case leaves in the output block -/

/-- The reset case's one store covers the whole block. -/
theorem coverReset (c : Dev nD) (i : grid0.Coords) (arg2 : Memref sig .tc .vmem S1x1024x2048 .bf16) (harg2 : arg2.IsWhole) (arg3 : Memref sig .tc .vmem S1x1024x2048 .bf16) (harg3 : arg3.IsWhole) (arg4 : Memref sig .tc .vmem S1x512x2048 .f32) (harg4 : arg4.IsWhole) (arg5 : Memref sig .tc .vmem S1x1x512 .f32) (harg5 : arg5.IsWhole) (arg6 : Memref sig .tc .vmem S1x2048x512 .f32) (harg6 : arg6.IsWhole) (arg7 : Memref sig .tc .vmem S1x1x2048 .f32) (harg7 : arg7.IsWhole) (arg8 : Memref sig .tc .vmem S1x1024x2048 .f32) (harg8 : arg8.IsWhole)
    (hc1 : k0_cond1 i = 1#1) (hc2 : ¬ k0_cond2 i = 1#1) (x0 : Vec F S1x1024x2048 .bf16) (x1 : Vec F S1x1024x2048 .bf16) (x2 : Vec F S1x512x2048 .f32) (x3 : Vec F S1x1x512 .f32) (x4 : Vec F S1x2048x512 .f32) (x5 : Vec F S1x1x2048 .f32) (y : S1x1024x2048.Idx) :
    ∃ pc ∈ (runReset c i arg2 harg2 arg3 harg3 arg4 harg4 arg5 harg5 arg6 harg6 arg7 harg7 arg8 harg8 hc1 hc2 x0 x1 x2 x3 x4 x5).1, y ∈ pc.1.set :=
  View.cover_of_tiledL (runReset c i arg2 harg2 arg3 harg3 arg4 harg4 arg5 harg5 arg6 harg6 arg7 harg7 arg8 harg8 hc1 hc2 x0 x1 x2 x3 x4 x5).1 S1x1024x2048.size (by sl_kernel_rfl) y

/-- What the reset case leaves: its pieces read back. -/
def outReset (c : Dev nD) (i : grid0.Coords) (arg2 : Memref sig .tc .vmem S1x1024x2048 .bf16) (harg2 : arg2.IsWhole) (arg3 : Memref sig .tc .vmem S1x1024x2048 .bf16) (harg3 : arg3.IsWhole) (arg4 : Memref sig .tc .vmem S1x512x2048 .f32) (harg4 : arg4.IsWhole) (arg5 : Memref sig .tc .vmem S1x1x512 .f32) (harg5 : arg5.IsWhole) (arg6 : Memref sig .tc .vmem S1x2048x512 .f32) (harg6 : arg6.IsWhole) (arg7 : Memref sig .tc .vmem S1x1x2048 .f32) (harg7 : arg7.IsWhole) (arg8 : Memref sig .tc .vmem S1x1024x2048 .f32) (harg8 : arg8.IsWhole)
    (hc1 : k0_cond1 i = 1#1) (hc2 : ¬ k0_cond2 i = 1#1) (x0 : Vec F S1x1024x2048 .bf16) (x1 : Vec F S1x1024x2048 .bf16) (x2 : Vec F S1x512x2048 .f32) (x3 : Vec F S1x1x512 .f32) (x4 : Vec F S1x2048x512 .f32) (x5 : Vec F S1x1x2048 .f32) : Vec F S1x1024x2048 .f32 :=
  outView.read (Elt F) (outView.writes (Elt F) outView.junk (runReset c i arg2 harg2 arg3 harg3 arg4 harg4 arg5 harg5 arg6 harg6 arg7 harg7 arg8 harg8 hc1 hc2 x0 x1 x2 x3 x4 x5).1)

/-- The accumulate case's one store covers the whole block. -/
theorem coverAccum (c : Dev nD) (i : grid0.Coords) (arg2 : Memref sig .tc .vmem S1x1024x2048 .bf16) (harg2 : arg2.IsWhole) (arg3 : Memref sig .tc .vmem S1x1024x2048 .bf16) (harg3 : arg3.IsWhole) (arg4 : Memref sig .tc .vmem S1x512x2048 .f32) (harg4 : arg4.IsWhole) (arg5 : Memref sig .tc .vmem S1x1x512 .f32) (harg5 : arg5.IsWhole) (arg6 : Memref sig .tc .vmem S1x2048x512 .f32) (harg6 : arg6.IsWhole) (arg7 : Memref sig .tc .vmem S1x1x2048 .f32) (harg7 : arg7.IsWhole) (arg8 : Memref sig .tc .vmem S1x1024x2048 .f32) (harg8 : arg8.IsWhole)
    (hc1 : ¬ k0_cond1 i = 1#1) (hc2 : k0_cond2 i = 1#1) (x0 : Vec F S1x1024x2048 .bf16) (x1 : Vec F S1x1024x2048 .bf16) (x2 : Vec F S1x512x2048 .f32) (x3 : Vec F S1x1x512 .f32) (x4 : Vec F S1x2048x512 .f32) (x5 : Vec F S1x1x2048 .f32) (acc : Vec F S1x1024x2048 .f32) (y : S1x1024x2048.Idx) :
    ∃ pc ∈ (runAccum c i arg2 harg2 arg3 harg3 arg4 harg4 arg5 harg5 arg6 harg6 arg7 harg7 arg8 harg8 hc1 hc2 x0 x1 x2 x3 x4 x5 acc).1, y ∈ pc.1.set :=
  View.cover_of_tiledL (runAccum c i arg2 harg2 arg3 harg3 arg4 harg4 arg5 harg5 arg6 harg6 arg7 harg7 arg8 harg8 hc1 hc2 x0 x1 x2 x3 x4 x5 acc).1 S1x1024x2048.size (by sl_kernel_rfl) y

/-- What the accumulate case leaves over the running contents `acc`: its pieces read back. -/
def outAccum (c : Dev nD) (i : grid0.Coords) (arg2 : Memref sig .tc .vmem S1x1024x2048 .bf16) (harg2 : arg2.IsWhole) (arg3 : Memref sig .tc .vmem S1x1024x2048 .bf16) (harg3 : arg3.IsWhole) (arg4 : Memref sig .tc .vmem S1x512x2048 .f32) (harg4 : arg4.IsWhole) (arg5 : Memref sig .tc .vmem S1x1x512 .f32) (harg5 : arg5.IsWhole) (arg6 : Memref sig .tc .vmem S1x2048x512 .f32) (harg6 : arg6.IsWhole) (arg7 : Memref sig .tc .vmem S1x1x2048 .f32) (harg7 : arg7.IsWhole) (arg8 : Memref sig .tc .vmem S1x1024x2048 .f32) (harg8 : arg8.IsWhole)
    (hc1 : ¬ k0_cond1 i = 1#1) (hc2 : k0_cond2 i = 1#1) (x0 : Vec F S1x1024x2048 .bf16) (x1 : Vec F S1x1024x2048 .bf16) (x2 : Vec F S1x512x2048 .f32) (x3 : Vec F S1x1x512 .f32) (x4 : Vec F S1x2048x512 .f32) (x5 : Vec F S1x1x2048 .f32) (acc : Vec F S1x1024x2048 .f32) : Vec F S1x1024x2048 .f32 :=
  outView.read (Elt F) (outView.writes (Elt F) outView.junk (runAccum c i arg2 harg2 arg3 harg3 arg4 harg4 arg5 harg5 arg6 harg6 arg7 harg7 arg8 harg8 hc1 hc2 x0 x1 x2 x3 x4 x5 acc).1)

/-! ## What the output block holds after each point -/

/-- The accumulation, by recursion on the point. -/
def outsAt (c : Dev nD) : (n : ℕ) → n < cfg0.N → Vec F S1x1024x2048 .f32
  | 0, hn => outReset c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩)
      ((reset_iff ⟨0, hn⟩).mpr (Nat.zero_mod _)) (fun h => (accum_iff ⟨0, hn⟩).mp h (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩)
  | n + 1, hn =>
    if h0 : (n + 1) % 8 = 0 then
      outReset c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩)
        ((reset_iff ⟨n + 1, hn⟩).mpr h0) (fun h => (accum_iff ⟨n + 1, hn⟩).mp h h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩)
    else
      outAccum c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩)
        (fun h => h0 ((reset_iff ⟨n + 1, hn⟩).mp h)) ((accum_iff ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩)
        (outsAt c n (Nat.lt_of_succ_lt hn))

/-- At a first tile: the reset case's contents. -/
theorem outsAt_reset (c : Dev nD) (t : Fin cfg0.N) (h0 : t.val % 8 = 0) :
    outsAt m c t.val t.isLt = outReset c (grid0.coords t) (ms0 t) (hs0 t) (ms1 t) (hs1 t) (ms2 t) (hs2 t) (ms3 t) (hs3 t) (ms4 t) (hs4 t) (ms5 t) (hs5 t) (ms6 t) (hs6 t)
      ((reset_iff t).mpr h0) (fun h => (accum_iff t).mp h h0) (iblk m c 0 t) (iblk m c 1 t) (iblk m c 2 t) (iblk m c 3 t) (iblk m c 4 t) (iblk m c 5 t) := by
  obtain ⟨n, hn⟩ := t
  cases n with
  | zero => exact rfl
  | succ n => exact (dif_pos h0).trans rfl

/-- At a later tile: the accumulate case's contents, over what the point before left. -/
theorem outsAt_accum (c : Dev nD) (t : Fin cfg0.N) (h0 : ¬ t.val % 8 = 0) :
    outsAt m c t.val t.isLt = outAccum c (grid0.coords t) (ms0 t) (hs0 t) (ms1 t) (hs1 t) (ms2 t) (hs2 t) (ms3 t) (hs3 t) (ms4 t) (hs4 t) (ms5 t) (hs5 t) (ms6 t) (hs6 t)
      (fun h => h0 ((reset_iff t).mp h)) ((accum_iff t).mpr h0) (iblk m c 0 t) (iblk m c 1 t) (iblk m c 2 t) (iblk m c 3 t) (iblk m c 4 t) (iblk m c 5 t)
      (outsAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The arrays as the region finds them; after the body each input's buffer at its block and the output's at
    `outsAt`; the invariant the scoped rest and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt m c t.val t.isLt)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = (outsAt m c t.val t.isLt) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

/-- At a later tile the output's buffer holds what the point before left: the point is not the first, and the
    block is written back only after a last tile, never before a later one. -/
theorem before6_accum (c : Dev nD) (t : Fin cfg0.N) (h0 : ¬ t.val % 8 = 0) (d) :
    (dats m 0 c).before 6 t d = (outsAt m c (t.val - 1) (Nat.lt_of_le_of_lt (Nat.sub_le _ _) t.isLt)) := by
  have hN : t.val < 64 := lt_of_lt_of_eq t.isLt (show cfg0.N = 64 from N_0)
  rw [Dat.before_out_kept _ 6 rfl t (by omega) (Bool.eq_false_iff.mpr fun h => by have := (flush0_6 _).mp h; dsimp only at this; omega)
    out_live (fun _ _ => rfl)]
  dsimp only [dats]

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t))

set_option maxHeartbeats 1600000 in
/-- The body at any point: the inputs' buffers hold their blocks; the point is a first tile or a later one; at a
    later one the output's buffer holds what the point before left; so that case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6]
  have hN : t.val < 64 := lt_of_lt_of_eq t.isLt (show cfg0.N = 64 from N_0)
  by_cases h0 : t.val % 8 = 0
  · rw [outsAt_reset m c t h0]
    unfold outReset
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((runReset c (grid0.coords t) _ _ _ _ _ _ _ _ _ _ _ _ _ _ ((reset_iff t).mpr h0) (fun h => (accum_iff t).mp h h0) (iblk m c 0 t) (iblk m c 1 t) (iblk m c 2 t) (iblk m c 3 t) (iblk m c 4 t) (iblk m c 5 t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iintro ⟨H0, H1, H2, H3, H4, H5, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; exact View.read_writes_of_cover _ _ _ _ _ (coverReset c _ _ _ _ _ _ _ _ _ _ _ _ _ _ _ _ _ _ _ _ _ _ _)
  · rw [outsAt_accum m c t h0]
    simp only [before6_accum m c t h0]
    unfold outAccum
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((runAccum c (grid0.coords t) _ _ _ _ _ _ _ _ _ _ _ _ _ _ (fun h => h0 ((reset_iff t).mp h)) ((accum_iff t).mpr h0) (iblk m c 0 t) (iblk m c 1 t) (iblk m c 2 t) (iblk m c 3 t) (iblk m c 4 t) (iblk m c 5 t) _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    iintro ⟨H0, H1, H2, H3, H4, H5, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; exact View.read_writes_of_cover _ _ _ _ _ (coverAccum c _ _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  -- the output window is live at every point: its clause of the obligation is the plain one
  rw [out_live (cfg0.grid.coords t)]
  exact sound_body m c t

/-! ## The run and the frame -/

set_option backward.isDefEq.respectTransparency.types false in
/-- Every weakly fair execution of @main terminates, each array of the pipeline ending at what the library computes
    from the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end, faults nowhere, and leaves its six argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Kernel.Body

end
-- ==== Proof.KI.Cases.lean ====
/-
  The kernel body at one grid point (e, f), run symbolically on whole staging buffers, in its two control cases.
  The body computes the tile  o = gelu((x + cond)·W1ᵀ|tile f + b1|tile f) · W2ᵀ|tile f  of expert e and then
  either RESETS the output block to  o + b2  (f = 0)  or ADDS o to what the block already holds (f ≠ 0).
  Each run returns, as its witness, the list of pieces its one store leaves in the output buffer.
-/
import proofs.«149297_g12060268167401_cont_fleet_796_23_alg».proof.Proof.Gen.KernelIdeal.Frame
import proofs.«149297_g12060268167401_cont_fleet_796_23_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which case a grid point is in

The grid is 8 experts × 8 tiles of the hidden axis, row-major: point t is (t / 8, t % 8). -/

/-- The reset branch is taken exactly at the first tile of each expert. -/
theorem reset_iff : ∀ t : Fin cfg0.N, k0_cond1 (grid0.coords t) = 1#1 ↔ t.val % 8 = 0 :=
  (by decide +kernel : ∀ t : Fin grid0.N, k0_cond1 (grid0.coords t) = 1#1 ↔ t.val % 8 = 0)

/-- The accumulate branch is taken exactly at the other tiles. -/
theorem accum_iff : ∀ t : Fin cfg0.N, k0_cond2 (grid0.coords t) = 1#1 ↔ ¬ t.val % 8 = 0 :=
  (by decide +kernel : ∀ t : Fin grid0.N, k0_cond2 (grid0.coords t) = 1#1 ↔ ¬ t.val % 8 = 0)

/-- Every point takes one of the two branches, so the output window is never idle. -/
theorem out_live : ∀ i : grid0.Coords, cfg0.idle 6 i = false := by
  intro i
  show (!(k0_cond1 i == 1#1) && !(k0_cond2 i == 1#1)) = false
  unfold k0_cond1 k0_cond2
  generalize i 1 = k
  revert k
  decide

/-! ## The two runs -/

set_option maxHeartbeats 1000000 in
/-- First tile (f = 0): the inputs' buffers at their blocks, the output's at anything; the body stores o + b2. -/
noncomputable def runReset (c : Dev nD) (i : grid0.Coords) (arg2 : Memref sig .tc .vmem S1x1024x2048 .bf16) (harg2 : arg2.IsWhole) (arg3 : Memref sig .tc .vmem S1x1024x2048 .bf16) (harg3 : arg3.IsWhole) (arg4 : Memref sig .tc .vmem S1x512x2048 .f32) (harg4 : arg4.IsWhole) (arg5 : Memref sig .tc .vmem S1x1x512 .f32) (harg5 : arg5.IsWhole) (arg6 : Memref sig .tc .vmem S1x2048x512 .f32) (harg6 : arg6.IsWhole) (arg7 : Memref sig .tc .vmem S1x1x2048 .f32) (harg7 : arg7.IsWhole) (arg8 : Memref sig .tc .vmem S1x1024x2048 .f32) (harg8 : arg8.IsWhole)
    (hc1 : k0_cond1 i = 1#1) (hc2 : ¬ k0_cond2 i = 1#1)
    (x0 : Vec F S1x1024x2048 .bf16) (x1 : Vec F S1x1024x2048 .bf16) (x2 : Vec F S1x512x2048 .f32) (x3 : Vec F S1x1x512 .f32) (x4 : Vec F S1x2048x512 .f32) (x5 : Vec F S1x1x2048 .f32) :
    { L : List (View.Piece (Elt F) S1x1024x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L)) -∗ K ⟨⟩))
          ⊢ wp frame (wpE (defs₀ (F := F)) Variants.none c none) E (cc0__ffn_kernel i arg2 harg2 arg3 harg3 arg4 harg4 arg5 harg5 arg6 harg6 arg7 harg7 arg8 harg8) K } := by
  refine ⟨?_, fun E K => ?run⟩
  case run =>
    simp only [cc0__ffn_kernel_eq_skeleton]; unfold cc0__ffn_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact H6

set_option maxHeartbeats 1000000 in
/-- Later tiles (f ≠ 0): the output's buffer at the running sum `acc`; the body stores acc + o. -/
noncomputable def runAccum (c : Dev nD) (i : grid0.Coords) (arg2 : Memref sig .tc .vmem S1x1024x2048 .bf16) (harg2 : arg2.IsWhole) (arg3 : Memref sig .tc .vmem S1x1024x2048 .bf16) (harg3 : arg3.IsWhole) (arg4 : Memref sig .tc .vmem S1x512x2048 .f32) (harg4 : arg4.IsWhole) (arg5 : Memref sig .tc .vmem S1x1x512 .f32) (harg5 : arg5.IsWhole) (arg6 : Memref sig .tc .vmem S1x2048x512 .f32) (harg6 : arg6.IsWhole) (arg7 : Memref sig .tc .vmem S1x1x2048 .f32) (harg7 : arg7.IsWhole) (arg8 : Memref sig .tc .vmem S1x1024x2048 .f32) (harg8 : arg8.IsWhole)
    (hc1 : ¬ k0_cond1 i = 1#1) (hc2 : k0_cond2 i = 1#1)
    (x0 : Vec F S1x1024x2048 .bf16) (x1 : Vec F S1x1024x2048 .bf16) (x2 : Vec F S1x512x2048 .f32) (x3 : Vec F S1x1x512 .f32) (x4 : Vec F S1x2048x512 .f32) (x5 : Vec F S1x1x2048 .f32) (acc : Vec F S1x1024x2048 .f32) :
    { L : List (View.Piece (Elt F) S1x1024x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare acc
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L)) -∗ K ⟨⟩))
          ⊢ wp frame (wpE (defs₀ (F := F)) Variants.none c none) E (cc0__ffn_kernel i arg2 harg2 arg3 harg3 arg4 harg4 arg5 harg5 arg6 harg6 arg7 harg7 arg8 harg8) K } := by
  refine ⟨?_, fun E K => ?run⟩
  case run =>
    simp only [cc0__ffn_kernel_eq_skeleton]; unfold cc0__ffn_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact H6

end Cert.KernelIdeal.Body

end
-- ==== Proof.KI.Frame.lean ====
/-
  The frame of the kernel's program from its body: what the output block holds after each grid point, the pipeline's
  proof data, the body obligation at every point, the run and the frame.

  The output block of expert e is revisited by the eight points (e, 0), …, (e, 7) and written back once, after
  (e, 7). Point (e, 0) overwrites it whatever it held; each later point reads what the point before left and adds
  to it. So what the block holds after point n is defined by recursion on n: the reset case's contents when
  n ≡ 0 (mod 8), the accumulate case's over the contents after n - 1 otherwise.
-/
import proofs.«149297_g12060268167401_cont_fleet_796_23_alg».proof.Proof.KI.Cases

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The staging buffers at a point -/

/-- One staging buffer of the output window, through which its contents are stated (the choice does not matter). -/
abbrev outView : View sig .tc .vmem S1x1024x2048 .f32 := (Memref.whole cc0_stg6_0 : Memref sig .tc .vmem S1x1024x2048 .f32).view

abbrev ms0 (t : Fin cfg0.N) : Memref sig .tc .vmem S1x1024x2048 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1024x2048 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x512x2048 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x512 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x2048x512 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1x2048 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x1024x2048 .f32 := win0_6.stage (cfg0.slots t 6)
abbrev hs6 (t : Fin cfg0.N) : (ms6 t).IsWhole := hstage0_6 ((cfg0.slots t 6).cast nbuf0_6)

/-! ## What each case leaves in the output block -/

/-- The reset case's one store covers the whole block. -/
theorem coverReset (c : Dev nD) (i : grid0.Coords) (arg2 : Memref sig .tc .vmem S1x1024x2048 .bf16) (harg2 : arg2.IsWhole) (arg3 : Memref sig .tc .vmem S1x1024x2048 .bf16) (harg3 : arg3.IsWhole) (arg4 : Memref sig .tc .vmem S1x512x2048 .f32) (harg4 : arg4.IsWhole) (arg5 : Memref sig .tc .vmem S1x1x512 .f32) (harg5 : arg5.IsWhole) (arg6 : Memref sig .tc .vmem S1x2048x512 .f32) (harg6 : arg6.IsWhole) (arg7 : Memref sig .tc .vmem S1x1x2048 .f32) (harg7 : arg7.IsWhole) (arg8 : Memref sig .tc .vmem S1x1024x2048 .f32) (harg8 : arg8.IsWhole)
    (hc1 : k0_cond1 i = 1#1) (hc2 : ¬ k0_cond2 i = 1#1) (x0 : Vec F S1x1024x2048 .bf16) (x1 : Vec F S1x1024x2048 .bf16) (x2 : Vec F S1x512x2048 .f32) (x3 : Vec F S1x1x512 .f32) (x4 : Vec F S1x2048x512 .f32) (x5 : Vec F S1x1x2048 .f32) (y : S1x1024x2048.Idx) :
    ∃ pc ∈ (runReset c i arg2 harg2 arg3 harg3 arg4 harg4 arg5 harg5 arg6 harg6 arg7 harg7 arg8 harg8 hc1 hc2 x0 x1 x2 x3 x4 x5).1, y ∈ pc.1.set :=
  View.cover_of_tiledL (runReset c i arg2 harg2 arg3 harg3 arg4 harg4 arg5 harg5 arg6 harg6 arg7 harg7 arg8 harg8 hc1 hc2 x0 x1 x2 x3 x4 x5).1 S1x1024x2048.size (by sl_kernel_rfl) y

/-- What the reset case leaves: its pieces read back. -/
def outReset (c : Dev nD) (i : grid0.Coords) (arg2 : Memref sig .tc .vmem S1x1024x2048 .bf16) (harg2 : arg2.IsWhole) (arg3 : Memref sig .tc .vmem S1x1024x2048 .bf16) (harg3 : arg3.IsWhole) (arg4 : Memref sig .tc .vmem S1x512x2048 .f32) (harg4 : arg4.IsWhole) (arg5 : Memref sig .tc .vmem S1x1x512 .f32) (harg5 : arg5.IsWhole) (arg6 : Memref sig .tc .vmem S1x2048x512 .f32) (harg6 : arg6.IsWhole) (arg7 : Memref sig .tc .vmem S1x1x2048 .f32) (harg7 : arg7.IsWhole) (arg8 : Memref sig .tc .vmem S1x1024x2048 .f32) (harg8 : arg8.IsWhole)
    (hc1 : k0_cond1 i = 1#1) (hc2 : ¬ k0_cond2 i = 1#1) (x0 : Vec F S1x1024x2048 .bf16) (x1 : Vec F S1x1024x2048 .bf16) (x2 : Vec F S1x512x2048 .f32) (x3 : Vec F S1x1x512 .f32) (x4 : Vec F S1x2048x512 .f32) (x5 : Vec F S1x1x2048 .f32) : Vec F S1x1024x2048 .f32 :=
  outView.read (Elt F) (outView.writes (Elt F) outView.junk (runReset c i arg2 harg2 arg3 harg3 arg4 harg4 arg5 harg5 arg6 harg6 arg7 harg7 arg8 harg8 hc1 hc2 x0 x1 x2 x3 x4 x5).1)

/-- The accumulate case's one store covers the whole block. -/
theorem coverAccum (c : Dev nD) (i : grid0.Coords) (arg2 : Memref sig .tc .vmem S1x1024x2048 .bf16) (harg2 : arg2.IsWhole) (arg3 : Memref sig .tc .vmem S1x1024x2048 .bf16) (harg3 : arg3.IsWhole) (arg4 : Memref sig .tc .vmem S1x512x2048 .f32) (harg4 : arg4.IsWhole) (arg5 : Memref sig .tc .vmem S1x1x512 .f32) (harg5 : arg5.IsWhole) (arg6 : Memref sig .tc .vmem S1x2048x512 .f32) (harg6 : arg6.IsWhole) (arg7 : Memref sig .tc .vmem S1x1x2048 .f32) (harg7 : arg7.IsWhole) (arg8 : Memref sig .tc .vmem S1x1024x2048 .f32) (harg8 : arg8.IsWhole)
    (hc1 : ¬ k0_cond1 i = 1#1) (hc2 : k0_cond2 i = 1#1) (x0 : Vec F S1x1024x2048 .bf16) (x1 : Vec F S1x1024x2048 .bf16) (x2 : Vec F S1x512x2048 .f32) (x3 : Vec F S1x1x512 .f32) (x4 : Vec F S1x2048x512 .f32) (x5 : Vec F S1x1x2048 .f32) (acc : Vec F S1x1024x2048 .f32) (y : S1x1024x2048.Idx) :
    ∃ pc ∈ (runAccum c i arg2 harg2 arg3 harg3 arg4 harg4 arg5 harg5 arg6 harg6 arg7 harg7 arg8 harg8 hc1 hc2 x0 x1 x2 x3 x4 x5 acc).1, y ∈ pc.1.set :=
  View.cover_of_tiledL (runAccum c i arg2 harg2 arg3 harg3 arg4 harg4 arg5 harg5 arg6 harg6 arg7 harg7 arg8 harg8 hc1 hc2 x0 x1 x2 x3 x4 x5 acc).1 S1x1024x2048.size (by sl_kernel_rfl) y

/-- What the accumulate case leaves over the running contents `acc`: its pieces read back. -/
def outAccum (c : Dev nD) (i : grid0.Coords) (arg2 : Memref sig .tc .vmem S1x1024x2048 .bf16) (harg2 : arg2.IsWhole) (arg3 : Memref sig .tc .vmem S1x1024x2048 .bf16) (harg3 : arg3.IsWhole) (arg4 : Memref sig .tc .vmem S1x512x2048 .f32) (harg4 : arg4.IsWhole) (arg5 : Memref sig .tc .vmem S1x1x512 .f32) (harg5 : arg5.IsWhole) (arg6 : Memref sig .tc .vmem S1x2048x512 .f32) (harg6 : arg6.IsWhole) (arg7 : Memref sig .tc .vmem S1x1x2048 .f32) (harg7 : arg7.IsWhole) (arg8 : Memref sig .tc .vmem S1x1024x2048 .f32) (harg8 : arg8.IsWhole)
    (hc1 : ¬ k0_cond1 i = 1#1) (hc2 : k0_cond2 i = 1#1) (x0 : Vec F S1x1024x2048 .bf16) (x1 : Vec F S1x1024x2048 .bf16) (x2 : Vec F S1x512x2048 .f32) (x3 : Vec F S1x1x512 .f32) (x4 : Vec F S1x2048x512 .f32) (x5 : Vec F S1x1x2048 .f32) (acc : Vec F S1x1024x2048 .f32) : Vec F S1x1024x2048 .f32 :=
  outView.read (Elt F) (outView.writes (Elt F) outView.junk (runAccum c i arg2 harg2 arg3 harg3 arg4 harg4 arg5 harg5 arg6 harg6 arg7 harg7 arg8 harg8 hc1 hc2 x0 x1 x2 x3 x4 x5 acc).1)

/-! ## What the output block holds after each point -/

/-- The accumulation, by recursion on the point. -/
def outsAt (c : Dev nD) : (n : ℕ) → n < cfg0.N → Vec F S1x1024x2048 .f32
  | 0, hn => outReset c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩)
      ((reset_iff ⟨0, hn⟩).mpr (Nat.zero_mod _)) (fun h => (accum_iff ⟨0, hn⟩).mp h (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩)
  | n + 1, hn =>
    if h0 : (n + 1) % 8 = 0 then
      outReset c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩)
        ((reset_iff ⟨n + 1, hn⟩).mpr h0) (fun h => (accum_iff ⟨n + 1, hn⟩).mp h h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩)
    else
      outAccum c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩)
        (fun h => h0 ((reset_iff ⟨n + 1, hn⟩).mp h)) ((accum_iff ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩)
        (outsAt c n (Nat.lt_of_succ_lt hn))

/-- At a first tile: the reset case's contents. -/
theorem outsAt_reset (c : Dev nD) (t : Fin cfg0.N) (h0 : t.val % 8 = 0) :
    outsAt m c t.val t.isLt = outReset c (grid0.coords t) (ms0 t) (hs0 t) (ms1 t) (hs1 t) (ms2 t) (hs2 t) (ms3 t) (hs3 t) (ms4 t) (hs4 t) (ms5 t) (hs5 t) (ms6 t) (hs6 t)
      ((reset_iff t).mpr h0) (fun h => (accum_iff t).mp h h0) (iblk m c 0 t) (iblk m c 1 t) (iblk m c 2 t) (iblk m c 3 t) (iblk m c 4 t) (iblk m c 5 t) := by
  obtain ⟨n, hn⟩ := t
  cases n with
  | zero => exact rfl
  | succ n => exact (dif_pos h0).trans rfl

/-- At a later tile: the accumulate case's contents, over what the point before left. -/
theorem outsAt_accum (c : Dev nD) (t : Fin cfg0.N) (h0 : ¬ t.val % 8 = 0) :
    outsAt m c t.val t.isLt = outAccum c (grid0.coords t) (ms0 t) (hs0 t) (ms1 t) (hs1 t) (ms2 t) (hs2 t) (ms3 t) (hs3 t) (ms4 t) (hs4 t) (ms5 t) (hs5 t) (ms6 t) (hs6 t)
      (fun h => h0 ((reset_iff t).mp h)) ((accum_iff t).mpr h0) (iblk m c 0 t) (iblk m c 1 t) (iblk m c 2 t) (iblk m c 3 t) (iblk m c 4 t) (iblk m c 5 t)
      (outsAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The arrays as the region finds them; after the body each input's buffer at its block and the output's at
    `outsAt`; the invariant the scoped rest and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt m c t.val t.isLt)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = (outsAt m c t.val t.isLt) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

/-- At a later tile the output's buffer holds what the point before left: the point is not the first, and the
    block is written back only after a last tile, never before a later one. -/
theorem before6_accum (c : Dev nD) (t : Fin cfg0.N) (h0 : ¬ t.val % 8 = 0) (d) :
    (dats m 0 c).before 6 t d = (outsAt m c (t.val - 1) (Nat.lt_of_le_of_lt (Nat.sub_le _ _) t.isLt)) := by
  have hN : t.val < 64 := lt_of_lt_of_eq t.isLt (show cfg0.N = 64 from N_0)
  rw [Dat.before_out_kept _ 6 rfl t (by omega) (Bool.eq_false_iff.mpr fun h => by have := (flush0_6 _).mp h; dsimp only at this; omega)
    out_live (fun _ _ => rfl)]
  dsimp only [dats]

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t))

set_option maxHeartbeats 1600000 in
/-- The body at any point: the inputs' buffers hold their blocks; the point is a first tile or a later one; at a
    later one the output's buffer holds what the point before left; so that case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6]
  have hN : t.val < 64 := lt_of_lt_of_eq t.isLt (show cfg0.N = 64 from N_0)
  by_cases h0 : t.val % 8 = 0
  · rw [outsAt_reset m c t h0]
    unfold outReset
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((runReset c (grid0.coords t) _ _ _ _ _ _ _ _ _ _ _ _ _ _ ((reset_iff t).mpr h0) (fun h => (accum_iff t).mp h h0) (iblk m c 0 t) (iblk m c 1 t) (iblk m c 2 t) (iblk m c 3 t) (iblk m c 4 t) (iblk m c 5 t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iintro ⟨H0, H1, H2, H3, H4, H5, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; exact View.read_writes_of_cover _ _ _ _ _ (coverReset c _ _ _ _ _ _ _ _ _ _ _ _ _ _ _ _ _ _ _ _ _ _ _)
  · rw [outsAt_accum m c t h0]
    simp only [before6_accum m c t h0]
    unfold outAccum
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((runAccum c (grid0.coords t) _ _ _ _ _ _ _ _ _ _ _ _ _ _ (fun h => h0 ((reset_iff t).mp h)) ((accum_iff t).mpr h0) (iblk m c 0 t) (iblk m c 1 t) (iblk m c 2 t) (iblk m c 3 t) (iblk m c 4 t) (iblk m c 5 t) _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    iintro ⟨H0, H1, H2, H3, H4, H5, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; exact View.read_writes_of_cover _ _ _ _ _ (coverAccum c _ _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  -- the output window is live at every point: its clause of the obligation is the plain one
  rw [out_live (cfg0.grid.coords t)]
  exact sound_body m c t

/-! ## The run and the frame -/

set_option backward.isDefEq.respectTransparency.types false in
/-- Every weakly fair execution of @main terminates, each array of the pipeline ending at what the library computes
    from the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end, faults nowhere, and leaves its six argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Body

end
-- ==== Proof.KI.Pieces.lean ====
/-
  What the one store of each control case holds, as a pure function of the blocks the body loaded:
  at a first tile the tile's product plus the bias row, at a later tile the running block plus the tile's product.
-/
import proofs.«149297_g12060268167401_cont_fleet_796_23_alg».proof.Proof.KI.Frame
import Idealize.ShloMosaic.Lib.Pipeline.Value
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.Sem
open Idealize.ShloMosaic.Pipeline (Dat)

variable {F : FTy → Type} [FloatOps F]

theorem hz : (![0, 0, 0] : Fin 3 → Nat) = fun _ => 0 := funext fun a => by fin_cases a <;> rfl

/-- A later tile leaves the running block plus the tile's product. -/
theorem outAccum_eq (c : Dev nD) (i : grid0.Coords) (arg2 : Memref sig .tc .vmem S1x1024x2048 .bf16) (harg2 : arg2.IsWhole) (arg3 : Memref sig .tc .vmem S1x1024x2048 .bf16) (harg3 : arg3.IsWhole) (arg4 : Memref sig .tc .vmem S1x512x2048 .f32) (harg4 : arg4.IsWhole) (arg5 : Memref sig .tc .vmem S1x1x512 .f32) (harg5 : arg5.IsWhole) (arg6 : Memref sig .tc .vmem S1x2048x512 .f32) (harg6 : arg6.IsWhole) (arg7 : Memref sig .tc .vmem S1x1x2048 .f32) (harg7 : arg7.IsWhole) (arg8 : Memref sig .tc .vmem S1x1024x2048 .f32) (harg8 : arg8.IsWhole)
    (hc1 : ¬ k0_cond1 i = 1#1) (hc2 : k0_cond2 i = 1#1) (x0 : Vec F S1x1024x2048 .bf16) (x1 : Vec F S1x1024x2048 .bf16) (x2 : Vec F S1x512x2048 .f32) (x3 : Vec F S1x1x512 .f32) (x4 : Vec F S1x2048x512 .f32) (x5 : Vec F S1x1x2048 .f32) (acc : Vec F S1x1024x2048 .f32) :
    outAccum c i arg2 harg2 arg3 harg3 arg4 harg4 arg5 harg5 arg6 harg6 arg7 harg7 arg8 harg8 hc1 hc2 x0 x1 x2 x3 x4 x5 acc = k0_pay1 (k0_pay2 x0 x1 x2 x4 x3) acc := by
  unfold outAccum
  rw [View.read_writes_eq_canon _ _ _ (coverAccum c i arg2 harg2 arg3 harg3 arg4 harg4 arg5 harg5 arg6 harg6 arg7 harg7 arg8 harg8 hc1 hc2 x0 x1 x2 x3 x4 x5 acc)]
  unfold runAccum
  dsimp only
  sl_unfold_words
  rw [View.canon_unit_zero hz]
  simp only [View.readAt_eq_ld, harg2.read_unread, harg3.read_unread, harg4.read_unread, harg5.read_unread, harg6.read_unread, harg7.read_unread, harg8.read_unread, View.ld_unit_zero (S := S1x1024x2048) hz, View.ld_unit_zero (S := S1x512x2048) hz, View.ld_unit_zero (S := S1x1x512) hz, View.ld_unit_zero (S := S1x2048x512) hz, View.ld_unit_zero (S := S1x1x2048) hz]

/-- A first tile leaves the tile's product plus the bias row, whatever the block held. -/
theorem outReset_eq (c : Dev nD) (i : grid0.Coords) (arg2 : Memref sig .tc .vmem S1x1024x2048 .bf16) (harg2 : arg2.IsWhole) (arg3 : Memref sig .tc .vmem S1x1024x2048 .bf16) (harg3 : arg3.IsWhole) (arg4 : Memref sig .tc .vmem S1x512x2048 .f32) (harg4 : arg4.IsWhole) (arg5 : Memref sig .tc .vmem S1x1x512 .f32) (harg5 : arg5.IsWhole) (arg6 : Memref sig .tc .vmem S1x2048x512 .f32) (harg6 : arg6.IsWhole) (arg7 : Memref sig .tc .vmem S1x1x2048 .f32) (harg7 : arg7.IsWhole) (arg8 : Memref sig .tc .vmem S1x1024x2048 .f32) (harg8 : arg8.IsWhole)
    (hc1 : k0_cond1 i = 1#1) (hc2 : ¬ k0_cond2 i = 1#1) (x0 : Vec F S1x1024x2048 .bf16) (x1 : Vec F S1x1024x2048 .bf16) (x2 : Vec F S1x512x2048 .f32) (x3 : Vec F S1x1x512 .f32) (x4 : Vec F S1x2048x512 .f32) (x5 : Vec F S1x1x2048 .f32) :
    outReset c i arg2 harg2 arg3 harg3 arg4 harg4 arg5 harg5 arg6 harg6 arg7 harg7 arg8 harg8 hc1 hc2 x0 x1 x2 x3 x4 x5 = k0_pay3 x0 x1 x2 x4 x3 x5 := by
  unfold outReset
  rw [View.read_writes_eq_canon _ _ _ (coverReset c i arg2 harg2 arg3 harg3 arg4 harg4 arg5 harg5 arg6 harg6 arg7 harg7 arg8 harg8 hc1 hc2 x0 x1 x2 x3 x4 x5)]
  unfold runReset
  dsimp only
  sl_unfold_words
  rw [View.canon_unit_zero hz]
  simp only [View.readAt_eq_ld, harg2.read_unread, harg3.read_unread, harg4.read_unread, harg5.read_unread, harg6.read_unread, harg7.read_unread, harg8.read_unread, View.ld_unit_zero (S := S1x1024x2048) hz, View.ld_unit_zero (S := S1x512x2048) hz, View.ld_unit_zero (S := S1x1x512) hz, View.ld_unit_zero (S := S1x2048x512) hz, View.ld_unit_zero (S := S1x1x2048) hz]

end Cert.KernelIdeal.Body

end
-- ==== Proof.LibBlockedSum.lean ====
/-
  A finite sum cut into consecutive blocks.

  A sum over the `a * b` indices `0, 1, …, a * b - 1` is the sum, over the `a` blocks `s = 0, …, a - 1`, of the
  block's own sum over its `b` consecutive indices `s * b, s * b + 1, …, s * b + (b - 1)`. Addition is only asked
  to be commutative and associative (any additive commutative monoid: the extended reals qualify, where
  cancellation and distributivity may fail at the infinities but re-bracketing and re-ordering a sum never do).
  This is the law that joins a contraction computed one block of the contracted axis at a time with the same
  contraction computed in one go.
-/
import Mathlib.Algebra.BigOperators.Fin
import Mathlib.Logic.Equiv.Fin.Basic

open scoped BigOperators

namespace BlockedSum

/-- The `k`-th index of block `s` is an index of the whole range. -/
theorem block_index_lt {a b : ℕ} (s : Fin a) (k : Fin b) : s.val * b + k.val < a * b := by
  have hs : s.val + 1 ≤ a := s.isLt
  have hk : k.val < b := k.isLt
  calc s.val * b + k.val < s.val * b + b := Nat.add_lt_add_left hk _
    _ = (s.val + 1) * b := (Nat.succ_mul _ _).symm
    _ ≤ a * b := Nat.mul_le_mul_right b hs

/-- The `k`-th index of block `s`, as an index of the whole range. -/
def blockIndex {a b : ℕ} (s : Fin a) (k : Fin b) : Fin (a * b) := ⟨s.val * b + k.val, block_index_lt s k⟩

@[simp] theorem blockIndex_val {a b : ℕ} (s : Fin a) (k : Fin b) : (blockIndex s k).val = s.val * b + k.val := rfl

/-- A sum over `a * b` indices is the sum of its `a` consecutive blocks of `b` terms each. -/
theorem sum_eq_sum_blocks {M : Type*} [AddCommMonoid M] (a b : ℕ) (f : Fin (a * b) → M) :
    ∑ i : Fin (a * b), f i = ∑ s : Fin a, ∑ k : Fin b, f (blockIndex s k) := by
  rw [← Equiv.sum_comp finProdFinEquiv f, Fintype.sum_prod_type]
  refine Finset.sum_congr rfl fun s _ => Finset.sum_congr rfl fun k _ => congrArg f (Fin.ext ?_)
  show k.val + b * s.val = s.val * b + k.val
  rw [Nat.add_comm, Nat.mul_comm]

/-- The same with the blocks counted by a natural number below `a` (a `Finset.range` sum, the form a fold over
    consecutive steps unrolls to): `g` gives block `s`'s term at its `k`-th place, and agrees with `f` there. -/
theorem sum_range_blocks {M : Type*} [AddCommMonoid M] (a b : ℕ) (f : Fin (a * b) → M) (g : ℕ → Fin b → M)
    (hg : ∀ (s : Fin a) (k : Fin b), g s.val k = f (blockIndex s k)) :
    ∑ s ∈ Finset.range a, ∑ k : Fin b, g s k = ∑ i : Fin (a * b), f i := by
  rw [sum_eq_sum_blocks, Finset.sum_range]
  exact Finset.sum_congr rfl fun s _ => Finset.sum_congr rfl fun k _ => hg s k

end BlockedSum
-- ==== Proof.Spec.lean ====
/-
  The function both programs compute, on the extended reals.

  For expert e, token t and output feature d,
      out e t d = (Σ_{k < 4096} gelu(hid e t k) · W2[e, d, k]) + b2[e, d],
      hid e t k = (Σ_{j < 2048} (x[e, t, j] + cond[e, t, j]) · W1[e, k, j]) + b1[e, k],
  with gelu in its tanh form, v · (½ · (1 + tanh(s · (v + c · v³)))), the four constants being the binary values
  both programs spell (they are never evaluated: the same word stands on both sides).

  The kernel walks the hidden axis in eight tiles of 512: after tile f its output block holds
      acc f = acc (f - 1) + tile f   (f > 0),      acc 0 = tile 0 + b2,
  where tile f is the part of the contraction over k = 512 f, …, 512 f + 511. Re-bracketing and re-ordering a finite
  sum is all that separates acc 7 from out, so the law holds on every extended real: no finiteness is asked.
-/
import Idealize.ShloMosaic.PureOps.Ideal
import Idealize.ShloMosaic.Lib.ValueIdx
import proofs.«149297_g12060268167401_cont_fleet_796_23_alg».proof.Proof.LibBlockedSum

noncomputable section

namespace Cert.Spec

open Idealize.ShloMosaic Idealize.ShloMosaic.ValueIdx
open scoped BigOperators

/-- A rank-3 array of extended reals over literal extents. -/
abbrev T3 (a b c : ℕ) := (⟨3, ![a, b, c]⟩ : Shape).Idx → EReal
/-- A rank-2 array of extended reals over literal extents. -/
abbrev T2 (a b : ℕ) := (⟨2, ![a, b]⟩ : Shape).Idx → EReal

/-- gelu, tanh form: v · (½ · (1 + tanh(s · (v + c · (v · (v · v)))))). -/
def gelu (v : EReal) : EReal :=
  v * (Ideal.ofBits .f32 0x3F000000#32 * (Ideal.ofBits .f32 0x3F800000#32
    + Ideal.tanh (Ideal.ofBits .f32 0x3F4C422A#32 * (v + Ideal.ofBits .f32 0x3D372713#32 * (v * (v * v))))))

variable (x c : T3 8 1024 2048) (W1 : T3 8 4096 2048) (b1 : T2 8 4096) (W2 : T3 8 2048 4096) (b2 : T2 8 2048)

/-- The hidden pre-activation of expert e, token t, hidden unit k. -/
def hid (e : Fin 8) (t : Fin 1024) (k : Fin 4096) : EReal :=
  (∑ j : Fin 2048, (x (ix3 e t j) + c (ix3 e t j)) * W1 (ix3 e k j)) + b1 (ix2 e k)

/-- One term of the second contraction. -/
def term (e : Fin 8) (t : Fin 1024) (d : Fin 2048) (k : Fin 4096) : EReal :=
  gelu (hid x c W1 b1 e t k) * W2 (ix3 e d k)

/-- The result at (e, t, d). -/
def out (e : Fin 8) (t : Fin 1024) (d : Fin 2048) : EReal :=
  (∑ k : Fin 4096, term x c W1 b1 W2 e t d k) + b2 (ix2 e d)

/-- The result array. -/
def G : T3 8 1024 2048 := fun i => out x c W1 b1 W2 b2 (i 0) (i 1) (i 2)

/-- The hidden unit at place k of tile f. -/
def unit (f : Fin 8) (k : Fin 512) : Fin 4096 := BlockedSum.blockIndex (a := 8) (b := 512) f k

theorem unit_val (f : Fin 8) (k : Fin 512) : (unit f k).val = f.val * 512 + k.val := rfl

/-- Tile f's share of the second contraction (zero past the last tile). -/
def tile (e : Fin 8) (t : Fin 1024) (d : Fin 2048) (f : ℕ) : EReal :=
  ∑ k : Fin 512, if h : f < 8 then term x c W1 b1 W2 e t d (unit ⟨f, h⟩ k) else 0

/-- What the output block holds after tile f: reset to tile 0 + b2, then each later tile added. -/
def acc (e : Fin 8) (t : Fin 1024) (d : Fin 2048) : ℕ → EReal
  | 0 => tile x c W1 b1 W2 e t d 0 + b2 (ix2 e d)
  | f + 1 => acc e t d f + tile x c W1 b1 W2 e t d (f + 1)

/-- The running value is the tiles so far, summed, plus the bias. -/
theorem acc_eq_sum (e : Fin 8) (t : Fin 1024) (d : Fin 2048) (n : ℕ) :
    acc x c W1 b1 W2 b2 e t d n = (∑ s ∈ Finset.range (n + 1), tile x c W1 b1 W2 e t d s) + b2 (ix2 e d) := by
  induction n with
  | zero => simp [acc]
  | succ n ih =>
    rw [acc, ih, Finset.sum_range_succ _ (n + 1), add_right_comm]

/-- After the last tile the block holds the result: eight consecutive blocks of 512 terms are the whole sum. -/
theorem acc_last (e : Fin 8) (t : Fin 1024) (d : Fin 2048) :
    acc x c W1 b1 W2 b2 e t d 7 = out x c W1 b1 W2 b2 e t d := by
  rw [acc_eq_sum, out]
  congr 1
  exact BlockedSum.sum_range_blocks 8 512 (fun k => term x c W1 b1 W2 e t d k)
    (fun s k => if h : s < 8 then term x c W1 b1 W2 e t d (unit ⟨s, h⟩ k) else 0)
    (fun s k => by simp only [dif_pos s.isLt]; rfl)

end Cert.Spec

end
-- ==== Proof.KI.Blocks.lean ====
/-
  Each operand block of a grid point, read at an index, as an entry of the program's argument arrays.

  Point t of the 8 × 8 grid is (e, f) = (t / 8, t % 8): expert e, tile f of the hidden axis. Its blocks are
  rows of expert e: all of x[e] and cond[e] (through a change of float format, the identity on extended reals);
  rows 512 f … 512 f + 511 of W1[e] and the same columns of W2[e]; the same stretch of b1[e] (through the
  row-major reshape [8, 4096] → [64, 1, 512], whose row 8 e + f is that stretch); and b2[e] (through the
  reshape [8, 2048] → [8, 1, 2048]).
-/
import proofs.«149297_g12060268167401_cont_fleet_796_23_alg».proof.Proof.KI.Frame
import proofs.«149297_g12060268167401_cont_fleet_796_23_alg».proof.Proof.Spec
import Idealize.ShloMosaic.Lib.Pipeline.Value
import Idealize.ShloMosaic.Lib.ValueIdx
import Idealize.ShloMosaic.Lib.StableHlo.Run

set_option maxRecDepth 16384

noncomputable section

namespace Cert.KernelIdeal.Body

open Cert.KernelIdeal Cert.KernelIdeal.Gen
open Idealize.ShloMosaic Idealize.ShloMosaic.TcCoe Idealize.ShloMosaic.ValueIdx Idealize.ShloMosaic.StableHlo
open Idealize.SL Idealize.SL.Sem
open Idealize.ShloMosaic.Pipeline (Dat)

variable (m : (ℓ : Loc nD τ sig) → Buf (Elt Ideal) ℓ)

/-! ## The point's expert and tile -/

theorem N64 : cfg0.N = 64 := N_0

/-- The expert a point works on. -/
def expertOf (t : Fin cfg0.N) : Fin 8 := ⟨t.val / 8, by have h64 : t.val < 64 := lt_of_lt_of_eq t.isLt N_0; omega⟩
/-- The tile of the hidden axis a point works on. -/
def tileOf (t : Fin cfg0.N) : Fin 8 := ⟨t.val % 8, Nat.mod_lt _ (by decide)⟩

theorem expertOf_val (t : Fin cfg0.N) : (expertOf t).val = t.val / 8 := rfl
theorem tileOf_val (t : Fin cfg0.N) : (tileOf t).val = t.val % 8 := rfl

/-! ## The index maps over the grid, decided once -/

theorem idxX : ∀ t : Fin cfg0.N, win0_0.index t 0 = t.val / 8 ∧ win0_0.index t 1 = 0 ∧ win0_0.index t 2 = 0 :=
  (by decide +kernel : ∀ t : Fin grid0.N, win0_0.index t 0 = t.val / 8 ∧ win0_0.index t 1 = 0 ∧ win0_0.index t 2 = 0)
theorem idxC : ∀ t : Fin cfg0.N, win0_1.index t 0 = t.val / 8 ∧ win0_1.index t 1 = 0 ∧ win0_1.index t 2 = 0 :=
  (by decide +kernel : ∀ t : Fin grid0.N, win0_1.index t 0 = t.val / 8 ∧ win0_1.index t 1 = 0 ∧ win0_1.index t 2 = 0)
theorem idxW1 : ∀ t : Fin cfg0.N, win0_2.index t 0 = t.val / 8 ∧ win0_2.index t 1 = t.val % 8 ∧ win0_2.index t 2 = 0 :=
  (by decide +kernel : ∀ t : Fin grid0.N, win0_2.index t 0 = t.val / 8 ∧ win0_2.index t 1 = t.val % 8 ∧ win0_2.index t 2 = 0)
theorem idxB1 : ∀ t : Fin cfg0.N, win0_3.index t 0 = t.val ∧ win0_3.index t 1 = 0 ∧ win0_3.index t 2 = 0 :=
  (by decide +kernel : ∀ t : Fin grid0.N, win0_3.index t 0 = t.val ∧ win0_3.index t 1 = 0 ∧ win0_3.index t 2 = 0)
theorem idxW2 : ∀ t : Fin cfg0.N, win0_4.index t 0 = t.val / 8 ∧ win0_4.index t 1 = 0 ∧ win0_4.index t 2 = t.val % 8 :=
  (by decide +kernel : ∀ t : Fin grid0.N, win0_4.index t 0 = t.val / 8 ∧ win0_4.index t 1 = 0 ∧ win0_4.index t 2 = t.val % 8)
theorem idxB2 : ∀ t : Fin cfg0.N, win0_5.index t 0 = t.val / 8 ∧ win0_5.index t 1 = 0 ∧ win0_5.index t 2 = 0 :=
  (by decide +kernel : ∀ t : Fin grid0.N, win0_5.index t 0 = t.val / 8 ∧ win0_5.index t 1 = 0 ∧ win0_5.index t 2 = 0)
theorem idxO : ∀ t : Fin cfg0.N, win0_6.index t 0 = t.val / 8 ∧ win0_6.index t 1 = 0 ∧ win0_6.index t 2 = 0 :=
  (by decide +kernel : ∀ t : Fin grid0.N, win0_6.index t 0 = t.val / 8 ∧ win0_6.index t 1 = 0 ∧ win0_6.index t 2 = 0)

/-! ## The arrays the region finds, written by host operations before it -/

/-- x through the change of float format: the same extended reals. -/
theorem V_x (c : Dev nD) (i : S8x1024x2048.Idx) :
    (V m c main_v0 : S8x1024x2048.Idx → EReal) i = (m ((c : Thread nD τ).loc main_arg0) : S8x1024x2048.Idx → EReal) i := by
  have e : (V m c main_v0 : S8x1024x2048.Idx → EReal)
      = truncf (F := Ideal) .bf16 (m ((c : Thread nD τ).loc main_arg0)) bitsLt_bf16_f32 := by
    dsimp only [V, hostOps0]; after_results
  rw [e]; rfl

/-- cond through the change of float format: the same extended reals. -/
theorem V_c (c : Dev nD) (i : S8x1024x2048.Idx) :
    (V m c main_v1 : S8x1024x2048.Idx → EReal) i = (m ((c : Thread nD τ).loc main_arg1) : S8x1024x2048.Idx → EReal) i := by
  have e : (V m c main_v1 : S8x1024x2048.Idx → EReal)
      = truncf (F := Ideal) .bf16 (m ((c : Thread nD τ).loc main_arg1)) bitsLt_bf16_f32 := by
    dsimp only [V, hostOps0]; after_results
  rw [e]; rfl

/-- b1 through the row-major reshape to [64, 1, 512]: row r, place k is entry 512 r + k of the flattened array. -/
theorem V_b1 (c : Dev nD) (r : Fin 64) (k : Fin 512) (e : Fin 8) (q : Fin 4096) (h : e.val * 4096 + q.val = r.val * 512 + k.val) :
    (V m c main_v2 : S64x1x512.Idx → EReal) (ix3 r (0 : Fin 1) k)
      = (m ((c : Thread nD τ).loc main_arg3) : S8x4096.Idx → EReal) (ix2 e q) := by
  have e' : (V m c main_v2 : S64x1x512.Idx → EReal)
      = shapeCast S64x1x512 (m ((c : Thread nD τ).loc main_arg3) : S8x4096.Idx → EReal) shapeCasts_S8x4096_S64x1x512 := by
    dsimp only [V, hostOps0]; after_results; rfl
  rw [e']
  refine shapeCast_apply _ _ _ (ix2 e q) ?_
  rw [Shape.rowMajor_val_three, Shape.rowMajor_val_two]
  show e.val * 4096 + q.val = (r.val * 1 + 0) * 512 + k.val
  omega

/-- b2 through the reshape to [8, 1, 2048]. -/
theorem V_b2 (c : Dev nD) (e : Fin 8) (d : Fin 2048) :
    (V m c main_v3 : S8x1x2048.Idx → EReal) (ix3 e (0 : Fin 1) d)
      = (m ((c : Thread nD τ).loc main_arg5) : S8x2048.Idx → EReal) (ix2 e d) := by
  have e' : (V m c main_v3 : S8x1x2048.Idx → EReal)
      = shapeCast S8x1x2048 (m ((c : Thread nD τ).loc main_arg5) : S8x2048.Idx → EReal) shapeCasts_S8x2048_S8x1x2048 := by
    dsimp only [V, hostOps0]; after_results; rfl
  rw [e']
  refine shapeCast_apply _ _ _ (ix2 e d) ?_
  rw [Shape.rowMajor_val_three, Shape.rowMajor_val_two]
  show e.val * 2048 + d.val = (e.val * 1 + 0) * 2048 + d.val
  omega

/-! ## The blocks at an index -/

/-- The x block of a point is expert e's rows. -/
theorem blk_x (c : Dev nD) (t : Fin cfg0.N) (p : Fin 1024) (j : Fin 2048) :
    (iblk m c 0 t : S1x1024x2048.Idx → EReal) (ix3 (0 : Fin 1) p j)
      = (m ((c : Thread nD τ).loc main_arg0) : S8x1024x2048.Idx → EReal) (ix3 (expertOf t) p j) := by
  unfold iblk
  rw [View.read_apply]
  refine Eq.trans ?_ (V_x m c _)
  show (V m c main_v0 : S8x1024x2048.Idx → EReal) _ = (V m c main_v0 : S8x1024x2048.Idx → EReal) _
  refine congrArg _ (funext fun a => Fin.ext ?_)
  match a with
  | ⟨0, _⟩ => show win0_0.index t 0 * 1 + 1 * 0 = t.val / 8; rw [(idxX t).1]; omega
  | ⟨1, _⟩ => show win0_0.index t 1 * 1024 + 1 * p.val = p.val; rw [(idxX t).2.1]; omega
  | ⟨2, _⟩ => show win0_0.index t 2 * 2048 + 1 * j.val = j.val; rw [(idxX t).2.2]; omega

/-- The cond block of a point is expert e's rows. -/
theorem blk_c (c : Dev nD) (t : Fin cfg0.N) (p : Fin 1024) (j : Fin 2048) :
    (iblk m c 1 t : S1x1024x2048.Idx → EReal) (ix3 (0 : Fin 1) p j)
      = (m ((c : Thread nD τ).loc main_arg1) : S8x1024x2048.Idx → EReal) (ix3 (expertOf t) p j) := by
  unfold iblk
  rw [View.read_apply]
  refine Eq.trans ?_ (V_c m c _)
  show (V m c main_v1 : S8x1024x2048.Idx → EReal) _ = (V m c main_v1 : S8x1024x2048.Idx → EReal) _
  refine congrArg _ (funext fun a => Fin.ext ?_)
  match a with
  | ⟨0, _⟩ => show win0_1.index t 0 * 1 + 1 * 0 = t.val / 8; rw [(idxC t).1]; omega
  | ⟨1, _⟩ => show win0_1.index t 1 * 1024 + 1 * p.val = p.val; rw [(idxC t).2.1]; omega
  | ⟨2, _⟩ => show win0_1.index t 2 * 2048 + 1 * j.val = j.val; rw [(idxC t).2.2]; omega

/-- The W1 block of a point is the tile's 512 rows of expert e's first weight. -/
theorem blk_W1 (c : Dev nD) (t : Fin cfg0.N) (k : Fin 512) (j : Fin 2048) :
    (iblk m c 2 t : S1x512x2048.Idx → EReal) (ix3 (0 : Fin 1) k j)
      = (m ((c : Thread nD τ).loc main_arg2) : S8x4096x2048.Idx → EReal) (ix3 (expertOf t) (Cert.Spec.unit (tileOf t) k) j) := by
  unfold iblk
  rw [View.read_apply]
  show (V m c main_arg2 : S8x4096x2048.Idx → EReal) _ = _
  rw [V_main_arg2]
  refine congrArg _ (funext fun a => Fin.ext ?_)
  match a with
  | ⟨0, _⟩ => show win0_2.index t 0 * 1 + 1 * 0 = t.val / 8; rw [(idxW1 t).1]; omega
  | ⟨1, _⟩ => show win0_2.index t 1 * 512 + 1 * k.val = t.val % 8 * 512 + k.val; rw [(idxW1 t).2.1]; omega
  | ⟨2, _⟩ => show win0_2.index t 2 * 2048 + 1 * j.val = j.val; rw [(idxW1 t).2.2]; omega

/-- The W2 block of a point is the tile's 512 columns of expert e's second weight. -/
theorem blk_W2 (c : Dev nD) (t : Fin cfg0.N) (d : Fin 2048) (k : Fin 512) :
    (iblk m c 4 t : S1x2048x512.Idx → EReal) (ix3 (0 : Fin 1) d k)
      = (m ((c : Thread nD τ).loc main_arg4) : S8x2048x4096.Idx → EReal) (ix3 (expertOf t) d (Cert.Spec.unit (tileOf t) k)) := by
  unfold iblk
  rw [View.read_apply]
  show (V m c main_arg4 : S8x2048x4096.Idx → EReal) _ = _
  rw [V_main_arg4]
  refine congrArg _ (funext fun a => Fin.ext ?_)
  match a with
  | ⟨0, _⟩ => show win0_4.index t 0 * 1 + 1 * 0 = t.val / 8; rw [(idxW2 t).1]; omega
  | ⟨1, _⟩ => show win0_4.index t 1 * 2048 + 1 * d.val = d.val; rw [(idxW2 t).2.1]; omega
  | ⟨2, _⟩ => show win0_4.index t 2 * 512 + 1 * k.val = t.val % 8 * 512 + k.val; rw [(idxW2 t).2.2]; omega

/-- The b1 block of a point is the tile's stretch of expert e's first bias. -/
theorem blk_b1 (c : Dev nD) (t : Fin cfg0.N) (k : Fin 512) :
    (iblk m c 3 t : S1x1x512.Idx → EReal) (ix3 (0 : Fin 1) (0 : Fin 1) k)
      = (m ((c : Thread nD τ).loc main_arg3) : S8x4096.Idx → EReal) (ix2 (expertOf t) (Cert.Spec.unit (tileOf t) k)) := by
  have h64 : t.val < 64 := lt_of_lt_of_eq t.isLt N_0
  unfold iblk
  rw [View.read_apply]
  refine Eq.trans ?_ (V_b1 m c ⟨t.val, h64⟩ k (expertOf t) (Cert.Spec.unit (tileOf t) k) (by
    show t.val / 8 * 4096 + (t.val % 8 * 512 + k.val) = t.val * 512 + k.val; omega))
  show (V m c main_v2 : S64x1x512.Idx → EReal) _ = (V m c main_v2 : S64x1x512.Idx → EReal) _
  refine congrArg _ (funext fun a => Fin.ext ?_)
  match a with
  | ⟨0, _⟩ => show win0_3.index t 0 * 1 + 1 * 0 = t.val; rw [(idxB1 t).1]; omega
  | ⟨1, _⟩ => show win0_3.index t 1 * 1 + 1 * 0 = 0; rw [(idxB1 t).2.1]
  | ⟨2, _⟩ => show win0_3.index t 2 * 512 + 1 * k.val = k.val; rw [(idxB1 t).2.2]; omega

/-- The b2 block of a point is expert e's second bias. -/
theorem blk_b2 (c : Dev nD) (t : Fin cfg0.N) (d : Fin 2048) :
    (iblk m c 5 t : S1x1x2048.Idx → EReal) (ix3 (0 : Fin 1) (0 : Fin 1) d)
      = (m ((c : Thread nD τ).loc main_arg5) : S8x2048.Idx → EReal) (ix2 (expertOf t) d) := by
  unfold iblk
  rw [View.read_apply]
  refine Eq.trans ?_ (V_b2 m c (expertOf t) d)
  show (V m c main_v3 : S8x1x2048.Idx → EReal) _ = (V m c main_v3 : S8x1x2048.Idx → EReal) _
  refine congrArg _ (funext fun a => Fin.ext ?_)
  match a with
  | ⟨0, _⟩ => show win0_5.index t 0 * 1 + 1 * 0 = t.val / 8; rw [(idxB2 t).1]; omega
  | ⟨1, _⟩ => show win0_5.index t 1 * 1 + 1 * 0 = 0; rw [(idxB2 t).2.1]
  | ⟨2, _⟩ => show win0_5.index t 2 * 2048 + 1 * d.val = d.val; rw [(idxB2 t).2.2]; omega

end Cert.KernelIdeal.Body

end
-- ==== Proof.KI.TileValue.lean ====
/-
  The kernel's three payloads read at an index, on the extended reals.

  A tile's product is two matrix products into zero accumulators around an elementwise activation. Read at (p, d):
      Σ_{k < 512} gelu((Σ_{j < 2048} (x[0, p, j] + c[0, p, j]) · W1[0, k, j]) + b1[0, 0, k]) · W2[0, d, k].
  The narrowing format changes are the identity on extended reals, the casts between [1, a, b] and [a, b] and the
  broadcast of one row over many only re-index, and each matrix product contracts the second axis of both
  operands: out (p, q) = Σ_k l (p, k) · r (q, k). The first tile stores that product plus the bias row; a later tile
  stores the running block plus that product.
-/
import proofs.«149297_g12060268167401_cont_fleet_796_23_alg».proof.Proof.Gen.KernelIdeal.Skeleton
import proofs.«149297_g12060268167401_cont_fleet_796_23_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.TileValue

open Cert.KernelIdeal Cert.KernelIdeal.Gen Idealize.ShloMosaic Idealize.ShloMosaic.ValueIdx
open scoped BigOperators

/-! ## The first matrix product: [1024, 2048] against [512, 2048], both contracted on their second axis -/

theorem lhs1_0 (j : S1024x512.Idx) (q : dot_S1024x2048_S512x2048_S1024x512_1_1_0_0_n_n.contr.Idx) :
    (dot_S1024x2048_S512x2048_S1024x512_1_1_0_0_n_n.lhsIdx j q 0).val = (j 0).val := by
  unfold DotDims.lhsIdx
  rw [dif_neg (show ¬(0 : Fin S1024x2048.rank) ∈ dot_S1024x2048_S512x2048_S1024x512_1_1_0_0_n_n.lhsBatch by decide),
    dif_pos (show (0 : Fin S1024x2048.rank) ∈ dot_S1024x2048_S512x2048_S1024x512_1_1_0_0_n_n.lhsNonContracting by decide)]
  rfl
theorem lhs1_1 (j : S1024x512.Idx) (q : dot_S1024x2048_S512x2048_S1024x512_1_1_0_0_n_n.contr.Idx) :
    (dot_S1024x2048_S512x2048_S1024x512_1_1_0_0_n_n.lhsIdx j q 1).val = (q ⟨0, by decide⟩).val :=
  dot_S1024x2048_S512x2048_S1024x512_1_1_0_0_n_n.lhsIdx_val_of_single rfl j q
theorem rhs1_0 (j : S1024x512.Idx) (q : dot_S1024x2048_S512x2048_S1024x512_1_1_0_0_n_n.contr.Idx) :
    (dot_S1024x2048_S512x2048_S1024x512_1_1_0_0_n_n.rhsIdx j q 0).val = (j 1).val := by
  unfold DotDims.rhsIdx
  rw [dif_neg (show ¬(0 : Fin S512x2048.rank) ∈ dot_S1024x2048_S512x2048_S1024x512_1_1_0_0_n_n.rhsBatch by decide),
    dif_pos (show (0 : Fin S512x2048.rank) ∈ dot_S1024x2048_S512x2048_S1024x512_1_1_0_0_n_n.rhsNonContracting by decide)]
  rfl
theorem rhs1_1 (j : S1024x512.Idx) (q : dot_S1024x2048_S512x2048_S1024x512_1_1_0_0_n_n.contr.Idx) :
    (dot_S1024x2048_S512x2048_S1024x512_1_1_0_0_n_n.rhsIdx j q 1).val = (q ⟨0, by decide⟩).val :=
  dot_S1024x2048_S512x2048_S1024x512_1_1_0_0_n_n.rhsIdx_val_of_single rfl j q

/-- Into a zero accumulator, element (p, q) of the first product is Σ_k l (p, k) · r (q, k). -/
theorem mm1_apply {φ₁ φ₂ : FTy} (l : FVec Ideal S1024x2048 φ₁) (r : FVec Ideal S512x2048 φ₂) (p : Fin 1024) (q : Fin 512) :
    matmul (F := Ideal) dot_S1024x2048_S512x2048_S1024x512_1_1_0_0_n_n none l r (constant S1024x512 .f32 0x00000000#32) (ix2 p q)
      = ∑ k : Fin 2048, l (ix2 p k) * r (ix2 q k) := by
  simp only [matmul]
  rw [Ideal.matmul_constant_zero_apply,
    ← Equiv.sum_comp (contrEquiv1 dot_S1024x2048_S512x2048_S1024x512_1_1_0_0_n_n 2048 rfl rfl).symm]
  refine Finset.sum_congr rfl fun k _ => ?_
  have hk := contrEquiv1_symm_val dot_S1024x2048_S512x2048_S1024x512_1_1_0_0_n_n 2048 rfl rfl k
  have el : dot_S1024x2048_S512x2048_S1024x512_1_1_0_0_n_n.lhsIdx (ix2 p q)
      ((contrEquiv1 dot_S1024x2048_S512x2048_S1024x512_1_1_0_0_n_n 2048 rfl rfl).symm k) = ix2 p k :=
    funext fun a => Fin.ext (by
      match a with
      | ⟨0, _⟩ => exact lhs1_0 _ _
      | ⟨1, _⟩ => exact (lhs1_1 _ _).trans hk)
  have er : dot_S1024x2048_S512x2048_S1024x512_1_1_0_0_n_n.rhsIdx (ix2 p q)
      ((contrEquiv1 dot_S1024x2048_S512x2048_S1024x512_1_1_0_0_n_n 2048 rfl rfl).symm k) = ix2 q k :=
    funext fun a => Fin.ext (by
      match a with
      | ⟨0, _⟩ => exact rhs1_0 _ _
      | ⟨1, _⟩ => exact (rhs1_1 _ _).trans hk)
  rw [el, er]

/-! ## The second matrix product: [1024, 512] against [2048, 512], both contracted on their second axis -/

theorem lhs2_0 (j : S1024x2048.Idx) (q : dot_S1024x512_S2048x512_S1024x2048_1_1_0_0_n_n.contr.Idx) :
    (dot_S1024x512_S2048x512_S1024x2048_1_1_0_0_n_n.lhsIdx j q 0).val = (j 0).val := by
  unfold DotDims.lhsIdx
  rw [dif_neg (show ¬(0 : Fin S1024x512.rank) ∈ dot_S1024x512_S2048x512_S1024x2048_1_1_0_0_n_n.lhsBatch by decide),
    dif_pos (show (0 : Fin S1024x512.rank) ∈ dot_S1024x512_S2048x512_S1024x2048_1_1_0_0_n_n.lhsNonContracting by decide)]
  rfl
theorem lhs2_1 (j : S1024x2048.Idx) (q : dot_S1024x512_S2048x512_S1024x2048_1_1_0_0_n_n.contr.Idx) :
    (dot_S1024x512_S2048x512_S1024x2048_1_1_0_0_n_n.lhsIdx j q 1).val = (q ⟨0, by decide⟩).val :=
  dot_S1024x512_S2048x512_S1024x2048_1_1_0_0_n_n.lhsIdx_val_of_single rfl j q
theorem rhs2_0 (j : S1024x2048.Idx) (q : dot_S1024x512_S2048x512_S1024x2048_1_1_0_0_n_n.contr.Idx) :
    (dot_S1024x512_S2048x512_S1024x2048_1_1_0_0_n_n.rhsIdx j q 0).val = (j 1).val := by
  unfold DotDims.rhsIdx
  rw [dif_neg (show ¬(0 : Fin S2048x512.rank) ∈ dot_S1024x512_S2048x512_S1024x2048_1_1_0_0_n_n.rhsBatch by decide),
    dif_pos (show (0 : Fin S2048x512.rank) ∈ dot_S1024x512_S2048x512_S1024x2048_1_1_0_0_n_n.rhsNonContracting by decide)]
  rfl
theorem rhs2_1 (j : S1024x2048.Idx) (q : dot_S1024x512_S2048x512_S1024x2048_1_1_0_0_n_n.contr.Idx) :
    (dot_S1024x512_S2048x512_S1024x2048_1_1_0_0_n_n.rhsIdx j q 1).val = (q ⟨0, by decide⟩).val :=
  dot_S1024x512_S2048x512_S1024x2048_1_1_0_0_n_n.rhsIdx_val_of_single rfl j q

/-- Into a zero accumulator, element (p, d) of the second product is Σ_k l (p, k) · r (d, k). -/
theorem mm2_apply {φ₁ φ₂ : FTy} (l : FVec Ideal S1024x512 φ₁) (r : FVec Ideal S2048x512 φ₂) (p : Fin 1024) (d : Fin 2048) :
    matmul (F := Ideal) dot_S1024x512_S2048x512_S1024x2048_1_1_0_0_n_n none l r (constant S1024x2048 .f32 0x00000000#32) (ix2 p d)
      = ∑ k : Fin 512, l (ix2 p k) * r (ix2 d k) := by
  simp only [matmul]
  rw [Ideal.matmul_constant_zero_apply,
    ← Equiv.sum_comp (contrEquiv1 dot_S1024x512_S2048x512_S1024x2048_1_1_0_0_n_n 512 rfl rfl).symm]
  refine Finset.sum_congr rfl fun k _ => ?_
  have hk := contrEquiv1_symm_val dot_S1024x512_S2048x512_S1024x2048_1_1_0_0_n_n 512 rfl rfl k
  have el : dot_S1024x512_S2048x512_S1024x2048_1_1_0_0_n_n.lhsIdx (ix2 p d)
      ((contrEquiv1 dot_S1024x512_S2048x512_S1024x2048_1_1_0_0_n_n 512 rfl rfl).symm k) = ix2 p k :=
    funext fun a => Fin.ext (by
      match a with
      | ⟨0, _⟩ => exact lhs2_0 _ _
      | ⟨1, _⟩ => exact (lhs2_1 _ _).trans hk)
  have er : dot_S1024x512_S2048x512_S1024x2048_1_1_0_0_n_n.rhsIdx (ix2 p d)
      ((contrEquiv1 dot_S1024x512_S2048x512_S1024x2048_1_1_0_0_n_n 512 rfl rfl).symm k) = ix2 d k :=
    funext fun a => Fin.ext (by
      match a with
      | ⟨0, _⟩ => exact rhs2_0 _ _
      | ⟨1, _⟩ => exact (rhs2_1 _ _).trans hk)
  rw [el, er]

/-! ## The activation -/

/-- The elementwise chain between the two products, read at an index, is gelu of the pre-activation there: the same
    bracketing and the same four binary constants, and the narrowing format change is the identity. -/
theorem act_apply (h : FVec Ideal S1024x512 .f32) (hb : FTy.bits .bf16 < FTy.bits .f32) (i : S1024x512.Idx) :
    (truncf .bf16 (mulf h (mulf (broadcast S1024x512 (Scalar.ofBits (F := Ideal) .f32 0x3F000000#32))
      (addf (broadcast S1024x512 (Scalar.ofBits (F := Ideal) .f32 0x3F800000#32))
        (tanh (mulf (broadcast S1024x512 (Scalar.ofBits (F := Ideal) .f32 0x3F4C422A#32))
          (addf h (mulf (broadcast S1024x512 (Scalar.ofBits (F := Ideal) .f32 0x3D372713#32)) (mulf h (mulf h h))))))))) hb
      : FVec Ideal S1024x512 .bf16) i = Cert.Spec.gelu (h i) := rfl

/-! ## The three payloads -/

/-- The tile's product at (p, d). -/
theorem pay2_apply (v0 v2 : Vec Ideal S1x1024x2048 .bf16) (v5 : Vec Ideal S1x512x2048 .f32) (v8 : Vec Ideal S1x2048x512 .f32)
    (v12 : Vec Ideal S1x1x512 .f32) (p : Fin 1024) (d : Fin 2048) :
    k0_pay2 (F := Ideal) v0 v2 v5 v8 v12 (ix2 p d)
      = ∑ k : Fin 512, Cert.Spec.gelu ((∑ j : Fin 2048, (v0 (ix3 (0 : Fin 1) p j) + v2 (ix3 (0 : Fin 1) p j)) * v5 (ix3 (0 : Fin 1) k j))
          + v12 (ix3 (0 : Fin 1) (0 : Fin 1) k)) * v8 (ix3 (0 : Fin 1) d k) := by
  unfold k0_pay2
  refine (mm2_apply _ _ p d).trans (Finset.sum_congr rfl fun k _ => ?_)
  refine congrArg₂ (· * ·) ?_ ?_
  · refine (act_apply _ _ (ix2 p k)).trans (congrArg Cert.Spec.gelu ?_)
    refine (addf_apply _ _ _).trans (congrArg₂ (· + ·) ?_ ?_)
    · refine (mm1_apply _ _ p k).trans (Finset.sum_congr rfl fun j _ => ?_)
      refine congrArg₂ (· * ·) ((addf_apply _ _ _).trans (congrArg₂ (· + ·) ?_ ?_)) ?_
      · exact shapeCast_1ab_ab_apply v0 _ p j
      · exact shapeCast_1ab_ab_apply v2 _ p j
      · exact shapeCast_1ab_ab_apply v5 _ k j
    · exact (broadcastTo_1b_ab_apply _ _ p k).trans (shapeCast_1ab_ab_apply v12 _ (0 : Fin 1) k)
  · exact shapeCast_1ab_ab_apply v8 _ d k

/-- The first tile's store: the product plus the bias row. -/
theorem pay3_apply (v0 v2 : Vec Ideal S1x1024x2048 .bf16) (v5 : Vec Ideal S1x512x2048 .f32) (v8 : Vec Ideal S1x2048x512 .f32)
    (v12 : Vec Ideal S1x1x512 .f32) (v37 : Vec Ideal S1x1x2048 .f32) (u : Fin 1) (p : Fin 1024) (d : Fin 2048) :
    k0_pay3 (F := Ideal) v0 v2 v5 v8 v12 v37 (ix3 u p d)
      = k0_pay2 (F := Ideal) v0 v2 v5 v8 v12 (ix2 p d) + v37 (ix3 (0 : Fin 1) (0 : Fin 1) d) := by
  unfold k0_pay3
  refine (shapeCast_ab_1ab_apply _ _ u p d).trans ((addf_apply _ _ _).trans (congrArg (k0_pay2 (F := Ideal) v0 v2 v5 v8 v12 (ix2 p d) + ·) ?_))
  exact (broadcastTo_1b_ab_apply _ _ p d).trans (shapeCast_1ab_ab_apply v37 _ (0 : Fin 1) d)

/-- A later tile's store: the running block plus the product. -/
theorem pay1_apply (v30 : FVec Ideal S1024x2048 .f32) (v37 : Vec Ideal S1x1024x2048 .f32) (u : Fin 1) (p : Fin 1024) (d : Fin 2048) :
    k0_pay1 (F := Ideal) v30 v37 (ix3 u p d) = v37 (ix3 (0 : Fin 1) p d) + v30 (ix2 p d) := by
  unfold k0_pay1
  refine (shapeCast_ab_1ab_apply _ _ u p d).trans ((addf_apply _ _ _).trans (congrArg (· + v30 (ix2 p d)) ?_))
  exact shapeCast_1ab_ab_apply v37 _ p d

end Cert.KernelIdeal.TileValue

end
-- ==== Proof.KI.Running.lean ====
/-
  The output block after each grid point is the specification's running sum.

  At point t = (e, f) the body's tile product at (p, d), read through the point's blocks, is tile f's share of
  the second contraction for expert e. A first tile leaves that share plus the bias; a later tile adds its share
  to what the point before left, which belongs to the same expert. By induction on the point, the block after
  point t holds acc (t % 8) of expert t / 8.
-/
import proofs.«149297_g12060268167401_cont_fleet_796_23_alg».proof.Proof.KI.Pieces
import proofs.«149297_g12060268167401_cont_fleet_796_23_alg».proof.Proof.KI.Blocks
import proofs.«149297_g12060268167401_cont_fleet_796_23_alg».proof.Proof.KI.TileValue

set_option maxRecDepth 16384

noncomputable section

namespace Cert.KernelIdeal.Body

open Cert.KernelIdeal Cert.KernelIdeal.Gen Cert.KernelIdeal.TileValue
open Idealize.ShloMosaic Idealize.ShloMosaic.TcCoe Idealize.ShloMosaic.ValueIdx
open Idealize.SL Idealize.SL.Sem
open Idealize.ShloMosaic.Pipeline (Dat)
open scoped BigOperators

variable (m : (ℓ : Loc nD τ sig) → Buf (Elt Ideal) ℓ)

/-! ## The six argument arrays of a core, as arrays of extended reals -/

abbrev aX (c : Dev nD) : Cert.Spec.T3 8 1024 2048 := m ((c : Thread nD τ).loc main_arg0)
abbrev aC (c : Dev nD) : Cert.Spec.T3 8 1024 2048 := m ((c : Thread nD τ).loc main_arg1)
abbrev aW1 (c : Dev nD) : Cert.Spec.T3 8 4096 2048 := m ((c : Thread nD τ).loc main_arg2)
abbrev aB1 (c : Dev nD) : Cert.Spec.T2 8 4096 := m ((c : Thread nD τ).loc main_arg3)
abbrev aW2 (c : Dev nD) : Cert.Spec.T3 8 2048 4096 := m ((c : Thread nD τ).loc main_arg4)
abbrev aB2 (c : Dev nD) : Cert.Spec.T2 8 2048 := m ((c : Thread nD τ).loc main_arg5)

/-- The tile product of a point, at (p, d), is that tile's share of expert e's second contraction. -/
theorem tile_at (c : Dev nD) (t : Fin cfg0.N) (p : Fin 1024) (d : Fin 2048) :
    k0_pay2 (F := Ideal) (iblk m c 0 t) (iblk m c 1 t) (iblk m c 2 t) (iblk m c 4 t) (iblk m c 3 t) (ix2 p d)
      = Cert.Spec.tile (aX m c) (aC m c) (aW1 m c) (aB1 m c) (aW2 m c) (expertOf t) p d (t.val % 8) := by
  rw [pay2_apply]
  unfold Cert.Spec.tile
  refine Finset.sum_congr rfl fun k _ => ?_
  rw [dif_pos (Nat.mod_lt _ (by decide))]
  unfold Cert.Spec.term Cert.Spec.hid
  rw [blk_W2 m c t d k, blk_b1 m c t k]
  refine congrArg (fun z => Cert.Spec.gelu (z + _) * _) (Finset.sum_congr rfl fun j _ => ?_)
  rw [blk_x m c t p j, blk_c m c t p j, blk_W1 m c t k j]
  rfl

/-- What the output block holds after point n, at (p, d): the running sum of expert n / 8 after tile n % 8. -/
theorem outsAt_apply (c : Dev nD) : ∀ (n : ℕ) (h : n < cfg0.N) (p : Fin 1024) (d : Fin 2048),
    (outsAt m c n h : S1x1024x2048.Idx → EReal) (ix3 (0 : Fin 1) p d)
      = Cert.Spec.acc (aX m c) (aC m c) (aW1 m c) (aB1 m c) (aW2 m c) (aB2 m c) (expertOf ⟨n, h⟩) p d (n % 8)
  | 0, h, p, d => by
    rw [outsAt_reset m c ⟨0, h⟩ rfl, outReset_eq, pay3_apply, tile_at, blk_b2]
    rfl
  | n + 1, h, p, d => by
    by_cases h0 : (n + 1) % 8 = 0
    · rw [outsAt_reset m c ⟨n + 1, h⟩ h0, outReset_eq, pay3_apply, tile_at, blk_b2]
      show _ = Cert.Spec.acc (aX m c) (aC m c) (aW1 m c) (aB1 m c) (aW2 m c) (aB2 m c) (expertOf ⟨n + 1, h⟩) p d ((n + 1) % 8)
      rw [h0]
      rfl
    · rw [outsAt_accum m c ⟨n + 1, h⟩ h0, outAccum_eq, pay1_apply, tile_at]
      show (outsAt m c n (Nat.lt_of_succ_lt h) : S1x1024x2048.Idx → EReal) (ix3 (0 : Fin 1) p d) + _ = _
      rw [outsAt_apply c n (Nat.lt_of_succ_lt h) p d]
      have he : expertOf ⟨n, Nat.lt_of_succ_lt h⟩ = expertOf ⟨n + 1, h⟩ := Fin.ext (by
        show n / 8 = (n + 1) / 8; omega)
      have hr : (n + 1) % 8 = n % 8 + 1 := by omega
      rw [he]
      show _ = Cert.Spec.acc (aX m c) (aC m c) (aW1 m c) (aB1 m c) (aW2 m c) (aB2 m c) (expertOf ⟨n + 1, h⟩) p d ((n + 1) % 8)
      rw [hr]
      rfl

end Cert.KernelIdeal.Body

end
-- ==== Proof.KI.Final.lean ====
/-
  From the blocks to the array, and the kernel's run read as a value.

  The output block of expert e is written back once, after its last tile (points t with t % 8 = 7); by then it
  holds the running sum after eight tiles, which is the specification's result for expert e. The eight written
  blocks are the eight experts' slabs [e, 0 … 1023, 0 … 2047], so together they cover the result array, and the
  array ends holding the result everywhere.
-/
import proofs.«149297_g12060268167401_cont_fleet_796_23_alg».proof.Proof.KI.Running

set_option maxRecDepth 16384

noncomputable section

namespace Cert.KernelIdeal.Body

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ) (ρ : Dev nD → PrngReg)

/-- The result array of a core: the specification's function of its six argument arrays. -/
def result (c : Dev nD) : Buf (Elt Ideal) ((c : Thread nD τ).loc main_v4) :=
  Cert.Spec.G (aX m c) (aC m c) (aW1 m c) (aB1 m c) (aW2 m c) (aB2 m c)

/-- What a last tile writes back is its expert's slab of the result. -/
theorem flushed_eq (c : Dev nD) (t : Fin cfg0.N) (hf : (cfg0.win 6).flush t = true) :
    (dats m 0 c).flushed 6 t = ((cfg0.win 6).blk t).view.read (Elt Ideal) (result m c) := by
  have h7 : t.val % 8 = 7 := (flush0_6 t).mp hf
  show (cfg0.win 6).cut (grid0.coords t) ((dats m 0 c).after 6 t) = _
  rw [after6]
  funext y
  obtain ⟨u, p, d, rfl⟩ : ∃ (u : Fin 1) (p : Fin 1024) (d : Fin 2048), y = ix3 u p d := ⟨y 0, y 1, y 2, eq_ix3 y⟩
  obtain rfl : u = 0 := Fin.ext (by have := u.isLt; omega)
  show (outsAt m c t.val t.isLt : S1x1024x2048.Idx → EReal) (ix3 (0 : Fin 1) p d)
    = Cert.Spec.G (aX m c) (aC m c) (aW1 m c) (aB1 m c) (aW2 m c) (aB2 m c) (((cfg0.win 6).blk t).view.emb (ix3 (0 : Fin 1) p d))
  rw [outsAt_apply m c t.val t.isLt p d, h7, Cert.Spec.acc_last]
  unfold Cert.Spec.G
  have e0 : (((cfg0.win 6).blk t).view.emb (ix3 (0 : Fin 1) p d)) 0 = expertOf t := Fin.ext (by
    show win0_6.index t 0 * 1 + 1 * 0 = t.val / 8; rw [(idxO t).1]; omega)
  have e1 : (((cfg0.win 6).blk t).view.emb (ix3 (0 : Fin 1) p d)) 1 = p := Fin.ext (by
    show win0_6.index t 1 * 1024 + 1 * p.val = p.val; rw [(idxO t).2.1]; omega)
  have e2 : (((cfg0.win 6).blk t).view.emb (ix3 (0 : Fin 1) p d)) 2 = d := Fin.ext (by
    show win0_6.index t 2 * 2048 + 1 * d.val = d.val; rw [(idxO t).2.2]; omega)
  show _ = Cert.Spec.out (aX m c) (aC m c) (aW1 m c) (aB1 m c) (aW2 m c) (aB2 m c) _ _ _
  rw [e0, e1, e2]

/-- An index of the result array is in point t's block iff each coordinate is in the block's range on its axis. -/
theorem mem_blk (t : Fin cfg0.N) (i : S8x1024x2048.Idx) :
    i ∈ ((cfg0.win 6).blk t).view.set ↔ ∀ a : Fin 3, win0_6.index t a * S1x1024x2048.size a ≤ (i a).val ∧ (i a).val < win0_6.index t a * S1x1024x2048.size a + S1x1024x2048.size a := by
  show i ∈ ((View.whole main_v4).slice (win0_6.rect t)).set ↔ _
  rw [View.set_slice_whole, Rect.mem_set_unit]
  exact Iff.rfl

/-- Every index of the result array lies in the block some last tile writes back: expert e's, after point 8 e + 7. -/
theorem covered (i : S8x1024x2048.Idx) :
    ∃ t : Fin cfg0.N, (cfg0.win 6).flush t = true ∧ i ∈ ((cfg0.win 6).blk t).view.set := by
  have h0 : (i 0).val < 8 := (i 0).isLt
  have h1 : (i 1).val < 1024 := (i 1).isLt
  have h2 : (i 2).val < 2048 := (i 2).isLt
  refine ⟨⟨(i 0).val * 8 + 7, by rw [N64]; omega⟩, (flush0_6 _).mpr (by show ((i 0).val * 8 + 7) % 8 = 7; omega), ?_⟩
  rw [mem_blk]
  intro a
  obtain ⟨q0, q1, q2⟩ := idxO ⟨(i 0).val * 8 + 7, by rw [N64]; omega⟩
  match a with
  | ⟨0, _⟩ =>
    show win0_6.index _ 0 * 1 ≤ (i 0).val ∧ (i 0).val < win0_6.index _ 0 * 1 + 1
    rw [q0]; show ((i 0).val * 8 + 7) / 8 * 1 ≤ (i 0).val ∧ (i 0).val < ((i 0).val * 8 + 7) / 8 * 1 + 1; omega
  | ⟨1, _⟩ =>
    show win0_6.index _ 1 * 1024 ≤ (i 1).val ∧ (i 1).val < win0_6.index _ 1 * 1024 + 1024
    rw [q1]; omega
  | ⟨2, _⟩ =>
    show win0_6.index _ 2 * 2048 ≤ (i 2).val ∧ (i 2).val < win0_6.index _ 2 * 2048 + 2048
    rw [q2]; omega

/-- The result array ends holding the result. -/
theorem final (c : Dev nD) : (dats m 0 c).arrAt 6 cfg0.N = result m c :=
  (dats m 0 c).arrAt_eq_of_cover 6 (result m c) (flushed_eq m c) covered

/-- The kernel's run, read: the result array at the specification's function of the argument arrays, the six
    argument arrays unchanged. -/
theorem run : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨((h c).1 6).trans (final m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).1 4).trans (((dats m 0 c).arrAt_in 4 rfl _).trans ((A_eq m c 4).trans (V_main_arg4 m c))),
      ((h c).2 main_arg5 (Pipeline.mem_restRefs_of main_arg5 (by decide) (by decide))).trans (V_main_arg5 m c)⟩)
    (run_main (F := Ideal) m ρ)

end Cert.KernelIdeal.Body

end
-- ==== Proof.RefIsG.lean ====
/-
  The reference program computes the function G of Spec.lean.

  Read one operation at a time, the reference forms h = (x + c) · W1ᵀ + b1 (a sum over the 2048 input features),
  then h · (½ · (1 + tanh(s · (h + c₀ · ((h · h) · h))))) elementwise, then contracts that with W2ᵀ over the 4096
  hidden units and adds b2. The transposes and the broadcasts only re-index their operands, so element (e, t, d) of
  the result is  Σ_k gelu(hid e t k) · W2[e, d, k] + b2[e, d]  once the cube (h · h) · h is re-bracketed as
  h · (h · h): commutativity of the product on the extended reals is the only law used. The four constants are the
  same binary words on both sides and are never evaluated.
-/
import proofs.«149297_g12060268167401_cont_fleet_796_23_alg».proof.Proof.Gen.ReferenceIdeal.Read
import proofs.«149297_g12060268167401_cont_fleet_796_23_alg».proof.Proof.Spec
import Idealize.ShloMosaic.Lib.ValueIdx
import Idealize.ShloMosaic.PureOps.Ideal.Laws

noncomputable section

open Idealize.ShloMosaic Idealize.ShloMosaic.TcCoe Idealize.SL.Sem Cert.ReferenceIdeal Cert.ReferenceIdeal.Gen Cert.ReferenceIdeal.Read
open scoped BigOperators

namespace Cert.ReferenceIdeal.RefValue

variable (x0 x1 : (⟨S8x1024x2048, .f32⟩ : BufTy).Contents (Elt Ideal))
  (x2 : (⟨S8x4096x2048, .f32⟩ : BufTy).Contents (Elt Ideal))
  (x3 : (⟨S8x4096, .f32⟩ : BufTy).Contents (Elt Ideal))
  (x4 : (⟨S8x2048x4096, .f32⟩ : BufTy).Contents (Elt Ideal))
  (x5 : (⟨S8x2048, .f32⟩ : BufTy).Contents (Elt Ideal))

/-! ## Index equations: each re-indexing reads the coordinates one expects -/

/-- The first contraction reads its left operand at (e, t, j). -/
theorem lidx2_eq (e : Fin 8) (t : Fin 1024) (k : Fin 4096) (j : Fin 2048) :
    lidx_main_v2 (ValueIdx.ix3 e t k) j = ValueIdx.ix3 e t j :=
  funext fun a => Fin.ext (by match a with | ⟨0, _⟩ => rfl | ⟨1, _⟩ => rfl | ⟨2, _⟩ => rfl)

/-- The first contraction reads the transposed weight at (e, j, k), that is the weight itself at (e, k, j). -/
theorem ridx2_eq (e : Fin 8) (t : Fin 1024) (k : Fin 4096) (j : Fin 2048) :
    idx_main_v1 (ridx_main_v2 (ValueIdx.ix3 e t k) j) = ValueIdx.ix3 e k j :=
  funext fun a => Fin.ext (by match a with | ⟨0, _⟩ => rfl | ⟨1, _⟩ => rfl | ⟨2, _⟩ => rfl)

/-- The first bias, broadcast along the tokens, is read at (e, k). -/
theorem bidx4_eq (e : Fin 8) (t : Fin 1024) (k : Fin 4096) :
    idx_main_v3 (idx_main_v4 (ValueIdx.ix3 e t k)) = ValueIdx.ix2 e k :=
  funext fun a => Fin.ext (by match a with | ⟨0, _⟩ => rfl | ⟨1, _⟩ => rfl)

/-- The second contraction reads its left operand at (e, t, k). -/
theorem lidx20_eq (e : Fin 8) (t : Fin 1024) (d : Fin 2048) (k : Fin 4096) :
    lidx_main_v20 (ValueIdx.ix3 e t d) k = ValueIdx.ix3 e t k :=
  funext fun a => Fin.ext (by match a with | ⟨0, _⟩ => rfl | ⟨1, _⟩ => rfl | ⟨2, _⟩ => rfl)

/-- The second contraction reads the transposed weight at (e, k, d), that is the weight itself at (e, d, k). -/
theorem ridx20_eq (e : Fin 8) (t : Fin 1024) (d : Fin 2048) (k : Fin 4096) :
    idx_main_v19 (ridx_main_v20 (ValueIdx.ix3 e t d) k) = ValueIdx.ix3 e d k :=
  funext fun a => Fin.ext (by match a with | ⟨0, _⟩ => rfl | ⟨1, _⟩ => rfl | ⟨2, _⟩ => rfl)

/-- The second bias, broadcast along the tokens, is read at (e, d). -/
theorem bidx22_eq (e : Fin 8) (t : Fin 1024) (d : Fin 2048) :
    idx_main_v21 (idx_main_v22 (ValueIdx.ix3 e t d)) = ValueIdx.ix2 e d :=
  funext fun a => Fin.ext (by match a with | ⟨0, _⟩ => rfl | ⟨1, _⟩ => rfl)

/-! ## The hidden pre-activation -/

/-- The reference's pre-activation at (e, t, k) is hid e t k. -/
theorem v5_eq_hid (e : Fin 8) (t : Fin 1024) (k : Fin 4096) :
    val_main_v5 (F := Ideal) x0 x1 x2 x3 (ValueIdx.ix3 e t k) = Cert.Spec.hid x0 x1 x2 x3 e t k := by
  rw [val_main_v5_apply, val_main_v2_apply, val_main_v4_apply, val_main_v3_apply, Ideal.addf_def, bidx4_eq]
  unfold Cert.Spec.hid
  congr 1
  refine Finset.sum_congr rfl fun j _ => ?_
  rw [val_main_v0_apply, val_main_v1_apply, Ideal.addf_def, lidx2_eq, ridx2_eq]

/-! ## The activation -/

/-- Elementwise, the reference's activated value is gelu of its pre-activation: the cube (v · v) · v is v · (v · v). -/
theorem v18_eq_gelu (i : S8x1024x4096.Idx) :
    val_main_v18 (F := Ideal) x0 x1 x2 x3 i = Cert.Spec.gelu (val_main_v5 (F := Ideal) x0 x1 x2 x3 i) := by
  rw [val_main_v18_apply, val_main_v17_apply, val_main_v16_apply, val_main_cst_2_apply, val_main_v15_apply,
    val_main_v14_apply, val_main_cst_1_apply, val_main_v13_apply, val_main_v12_apply, val_main_v11_apply,
    val_main_cst_0_apply, val_main_v10_apply, val_main_v9_apply, val_main_v8_apply, val_main_cst_apply,
    val_main_v7_apply, val_main_v6_apply]
  generalize val_main_v5 (F := Ideal) x0 x1 x2 x3 i = v
  simp only [Ideal.addf_def, Ideal.mulf_def, Ideal.hostUnary_tanh_def, Ideal.ofBits_def]
  unfold Cert.Spec.gelu
  rw [mul_comm (v * v) v]

/-! ## The whole -/

/-- The reference's result array is G. -/
theorem ref_eq_G :
    Cert.ReferenceIdeal.Read.val_main_v23 (F := Ideal) x0 x1 x2 x3 x4 x5 = Cert.Spec.G x0 x1 x2 x3 x4 x5 := by
  funext i
  obtain ⟨e, t, d, rfl⟩ : ∃ e t d, i = ValueIdx.ix3 e t d := ⟨i 0, i 1, i 2, ValueIdx.eq_ix3 i⟩
  show _ = Cert.Spec.out x0 x1 x2 x3 x4 x5 e t d
  rw [val_main_v23_apply, val_main_v20_apply, val_main_v22_apply, val_main_v21_apply, Ideal.addf_def, bidx22_eq]
  unfold Cert.Spec.out
  congr 1
  refine Finset.sum_congr rfl fun k _ => ?_
  rw [v18_eq_gelu, val_main_v19_apply, lidx20_eq, ridx20_eq, v5_eq_hid]
  rfl

end Cert.ReferenceIdeal.RefValue

end
-- ==== Proof.Claims.lean ====
/-
  The five claims.

  Frames. The kernel's program, at the word level and at the extended reals, runs to the end, faults nowhere and
  leaves its six argument arrays unchanged: the body is run symbolically in its two control cases (first tile of an
  expert: reset the output block; later tile: add to it), which gives the pipeline's body obligation at every grid
  point. The reference is a straight line of host operations; its frame is its run with the result dropped.

  Preserves. The idealization rewrote no operation, so there is nothing to state.

  Algebraic. On the extended reals the kernel's result array ends at G of the argument arrays — its output block
  for expert e, written back after the eighth tile, holds (tile 0 + b2) + tile 1 + … + tile 7 — and the reference's
  at Σ_k gelu(hid)·W2 + b2 in one contraction, which is G as well. The two agree because a finite sum may be
  re-bracketed and re-ordered on any commutative monoid; no input needs to be finite for that.
-/
import proofs.«149297_g12060268167401_cont_fleet_796_23_alg».proof.Defs
import proofs.«149297_g12060268167401_cont_fleet_796_23_alg».proof.Proof.Gen.Kernel
import proofs.«149297_g12060268167401_cont_fleet_796_23_alg».proof.Proof.Gen.KernelIdeal
import proofs.«149297_g12060268167401_cont_fleet_796_23_alg».proof.Proof.Gen.ReferenceIdeal
import proofs.«149297_g12060268167401_cont_fleet_796_23_alg».proof.Proof.Gen.Pre_finite_inputs
import proofs.«149297_g12060268167401_cont_fleet_796_23_alg».proof.Proof.Gen.ReferenceIdeal.Read
import proofs.«149297_g12060268167401_cont_fleet_796_23_alg».proof.Proof.K.Frame
import proofs.«149297_g12060268167401_cont_fleet_796_23_alg».proof.Proof.KI.Final
import proofs.«149297_g12060268167401_cont_fleet_796_23_alg».proof.Proof.RefIsG

noncomputable section

namespace Cert.Proof.Claims

open Idealize.ShloMosaic Idealize.ShloMosaic.TcCoe Idealize.SL.Sem

theorem frame_k : Cert.frame_Kernel := fun m ρ _ => Cert.Kernel.Body.frame (F := Bits) m ρ

theorem frame_ki : Cert.frame_KernelIdeal := fun m ρ _ => Cert.KernelIdeal.Body.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

theorem algebraic : Cert.algebraic_KernelIdeal_ReferenceIdeal := by
  intro m ρ m' ρ' _ hagree
  refine ⟨fun c => Cert.KernelIdeal.Body.result m c, Cert.KernelIdeal.Body.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, Cert.ReferenceIdeal.RefValue.ref_eq_G,
    (hagree c).1, (hagree c).2.1, (hagree c).2.2.1, (hagree c).2.2.2.1, (hagree c).2.2.2.2.1, (hagree c).2.2.2.2.2]
  rfl

end Cert.Proof.Claims

end
-- ==== Proof.lean ====
/-
  The certificate: a fused per-expert feed-forward kernel against its plain reference.

  For each of 8 experts the kernel computes  gelu((x + cond)·W1ᵀ + b1)·W2ᵀ + b2  one tile of 512 hidden units at a
  time, accumulating the second product into the expert's output block over a grid axis; the reference computes the
  same expression with two whole contractions. Proof/Claims.lean proves the five claims (its header says how);
  they are assembled here behind the witnesses of the programs' stated side conditions.
-/
import proofs.«149297_g12060268167401_cont_fleet_796_23_alg».proof.Defs
import proofs.«149297_g12060268167401_cont_fleet_796_23_alg».proof.Proof.Gen.Kernel
import proofs.«149297_g12060268167401_cont_fleet_796_23_alg».proof.Proof.Gen.KernelIdeal
import proofs.«149297_g12060268167401_cont_fleet_796_23_alg».proof.Proof.Gen.ReferenceIdeal
import proofs.«149297_g12060268167401_cont_fleet_796_23_alg».proof.Proof.Gen.Pre_finite_inputs
import proofs.«149297_g12060268167401_cont_fleet_796_23_alg».proof.Proof.Claims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
